-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_v13 : IVec S_ 1) (main_v16 : IVec S3x256x128 1) : IVec S_ 1 :=
  let main_c_5 : IVec S_ 1 := constantI S_ 1 1#1
  let main_v17 : IVec S_ 1 := (fun x v => Host.reduce IntOp.andi x v reducesTo_S3x256x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : FVec F S3x128x256 .f32) (main_arg2 : FVec F S3x256 .f32) (main_arg3 : FVec F S3x256x128 .f32) (main_arg4 : FVec F S3x128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x256 .f32 := Host.absf main_arg1
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x128 .f32 := Host.absf main_arg3
  let main_cst_4 : FVec F S_ .f32 := constant S_ .f32 0x7F800000#32
  let main_v15 : FVec F S3x256x128 .f32 := broadcastInDim S3x256x128 ![] bcast_S_S3x256x128 main_cst_4
  let main_v16 : IVec S3x256x128 1 := cmpf .olt main_v14 main_v15
  fn_part1 (F := F) main_arg4 main_v13 main_v16
-- ==== Kernel.lean ====
abbrev S50000x128 : Shape := ⟨2, ![50000, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S5000x128 : Shape := ⟨2, ![5000, 128]⟩
abbrev S5000x256 : Shape := ⟨2, ![5000, 256]⟩

abbrev nBuf : Space → Nat
  | .hbm => 115
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S3x128x256, .f32⟩
  | .hbm, ⟨2, _⟩ => ⟨S3x256, .f32⟩
  | .hbm, ⟨3, _⟩ => ⟨S3x256x128, .f32⟩
  | .hbm, ⟨4, _⟩ => ⟨S3x128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x128, .f32⟩
  | .hbm, ⟨26, _⟩ => ⟨S800000x128, .i1⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128x256, .f32⟩
  | .hbm, ⟨35, _⟩ => ⟨S128x256, .f32⟩
  | .hbm, ⟨36, _⟩ => ⟨S1x256, .f32⟩
  | .hbm, ⟨37, _⟩ => ⟨S256, .f32⟩
  | .hbm, ⟨38, _⟩ => ⟨S1x256x128, .f32⟩
  | .hbm, ⟨39, _⟩ => ⟨S256x128, .f32⟩
  | .hbm, ⟨40, _⟩ => ⟨S1x128, .f32⟩
  | .hbm, ⟨41, _⟩ => ⟨S128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x128, .f32⟩
  | .hbm, ⟨62, _⟩ => ⟨S800000x128, .i1⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128x256, .f32⟩
  | .hbm, ⟨71, _⟩ => ⟨S128x256, .f32⟩
  | .hbm, ⟨72, _⟩ => ⟨S1x256, .f32⟩
  | .hbm, ⟨73, _⟩ => ⟨S256, .f32⟩
  | .hbm, ⟨74, _⟩ => ⟨S1x256x128, .f32⟩
  | .hbm, ⟨75, _⟩ => ⟨S256x128, .f32⟩
  | .hbm, ⟨76, _⟩ => ⟨S1x128, .f32⟩
  | .hbm, ⟨77, _⟩ => ⟨S128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S1, .i32⟩
  | .hbm, ⟨88, _⟩ => ⟨S_, .i32⟩
  | .hbm, ⟨89, _⟩ => ⟨S800000x1, .i32⟩
  | .hbm, ⟨90, _⟩ => ⟨S800000x1, .i1⟩
  | .hbm, ⟨91, _⟩ => ⟨S1x1, .i32⟩
  | .hbm, ⟨92, _⟩ => ⟨S800000x1, .i32⟩
  | .hbm, ⟨93, _⟩ => ⟨S800000x1, .i1⟩
  | .hbm, ⟨94, _⟩ => ⟨S800000x1, .i1⟩
  | .hbm, ⟨95, _⟩ => ⟨S_, .i1⟩
  | .hbm, ⟨96, _⟩ => ⟨S800000, .i1⟩
  | .hbm, ⟨97, _⟩ => ⟨S800000x128, .f32⟩
  | .hbm, ⟨98, _⟩ => ⟨S800000x128, .i1⟩
  | .hbm, ⟨99, _⟩ => ⟨S_, .f32⟩
  | .hbm, ⟨100, _⟩ => ⟨S800000x128, .f32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S1x128x256, .f32⟩
  | .hbm, ⟨107, _⟩ => ⟨S128x256, .f32⟩
  | .hbm, ⟨108, _⟩ => ⟨S1x256, .f32⟩
  | .hbm, ⟨109, _⟩ => ⟨S256, .f32⟩
  | .hbm, ⟨110, _⟩ => ⟨S1x256x128, .f32⟩
  | .hbm, ⟨111, _⟩ => ⟨S256x128, .f32⟩
  | .hbm, ⟨112, _⟩ => ⟨S1x128, .f32⟩
  | .hbm, ⟨113, _⟩ => ⟨S128, .f32⟩
  | .hbm, ⟨114, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x256, .f32⟩
  | .local _ .vmem, ⟨25, _⟩ => ⟨S256, .f32⟩
  | .local _ .vmem, ⟨26, _⟩ => ⟨S256x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v13 : Ref sig .tc := ⟨.hbm, 65, rfl⟩
abbrev main_cst_0 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v26 : Ref sig .tc := ⟨.hbm, 101, rfl⟩
abbrev main_cst_1 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S3x128x256 : Shape := ⟨3, ![3, 128, 256]⟩
abbrev S3x256 : Shape := ⟨2, ![3, 256]⟩
abbrev S3x256x128 : Shape := ⟨3, ![3, 256, 128]⟩
abbrev S3x128 : Shape := ⟨2, ![3, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S3x128x256, .f32⟩
  | 2 => ⟨S3x256, .f32⟩
  | 3 => ⟨S3x256x128, .f32⟩
  | 4 => ⟨S3x128, .f32⟩
  | 5 => ⟨S800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S800000x128, .f32⟩
  | 26 => ⟨S800000x128, .i1⟩
  | 27 => ⟨S_, .f32⟩
  | 28 => ⟨S800000x128, .f32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x256, .f32⟩
  | 36 => ⟨S128x256, .f32⟩
  | 37 => ⟨S50000x256, .f32⟩
  | 38 => ⟨S1x256, .f32⟩
  | 39 => ⟨S256, .f32⟩
  | 40 => ⟨S1x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S1x256x128, .f32⟩
  | 47 => ⟨S256x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x128, .f32⟩
  | 73 => ⟨S800000x128, .i1⟩
  | 74 => ⟨S_, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S1x128x256, .f32⟩
  | 83 => ⟨S128x256, .f32⟩
  | 84 => ⟨S50000x256, .f32⟩
  | 85 => ⟨S1x256, .f32⟩
  | 86 => ⟨S256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S1x256x128, .f32⟩
  | 94 => ⟨S256x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x128, .f32⟩
  | 120 => ⟨S800000x128, .i1⟩
  | 121 => ⟨S_, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x128, .f32⟩
  | 1 => ⟨S1x128x256, .f32⟩
  | 2 => ⟨S128x256, .f32⟩
  | 3 => ⟨S50000x256, .f32⟩
  | 4 => ⟨S1x256, .f32⟩
  | 5 => ⟨S256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S1x256x128, .f32⟩
  | 13 => ⟨S256x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_cst : Ref sig .tc := ⟨.hbm, 43, rfl⟩
abbrev main_call1_v0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v22 : Ref sig .tc := ⟨.hbm, 76, rfl⟩
abbrev main_cst_0 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_call3_cst : Ref sig .tc := ⟨.hbm, 90, rfl⟩
abbrev main_call3_v0 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v44 : Ref sig .tc := ⟨.hbm, 123, rfl⟩
abbrev main_cst_1 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_call5_cst : Ref sig .tc := ⟨.hbm, 137, rfl⟩
abbrev main_call5_v0 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The kernel program's run with its result named.

  Every weakly fair execution of the program terminates without a fault, the seven argument arrays end as launched, and the
  result array ends at what the last boundary's contents hold at it: the third region's output array after its ten
  write-backs. This is the frame's own run over the program's nine segments, read at one more buffer of the final state.
-/
import proofs.«143006_j74388833566752_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.MlpSpec.lean ====
/-
  The two-layer perceptron of one message-passing layer, entry by entry, on the extended reals.

  For a matrix x of node features, a matrix a of aggregated neighbour features (both n × 128), weights w1 (128 × 256),
  w2 (256 × 128) and biases b1 (256), b2 (128), the layer's output at node p and feature f is

      Σ_j max(Σ_k (x[p,k] + a[p,k]) · w1[k,j] + b1[j], 0) · w2[j,f] + b2[f].

  A row of the output depends on the same row of x and a only, so the function restricts to any block of rows.
-/
import Idealize.ShloMosaic.PureOps.Ideal
import Idealize.ShloMosaic.Lib.ValueIdx

noncomputable section

open scoped BigOperators

namespace Cert.Gnn

open Idealize.ShloMosaic Idealize.ShloMosaic.ValueIdx

/-- The layer's output at node `p`, feature `f`. -/
def mlpRow {n : ℕ} (x a : (⟨2, ![n, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) (p : Fin n) (f : Fin 128) : EReal :=
  (∑ j : Fin 256, max ((∑ k : Fin 128, (x (ix2 p k) + a (ix2 p k)) * w1 (ix2 k j)) + b1 (ix1 j)) 0 * w2 (ix2 j f))
    + b2 (ix1 f)

/-- The layer's output as a whole matrix. -/
def mlpArr {n : ℕ} (x a : (⟨2, ![n, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) : (⟨2, ![n, 128]⟩ : Shape).Idx → EReal :=
  fun i => mlpRow x a w1 b1 w2 b2 (i 0) (i 1)

theorem mlpArr_apply {n : ℕ} (x a : (⟨2, ![n, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) (p : Fin n) (f : Fin 128) :
    mlpArr x a w1 b1 w2 b2 (ix2 p f) = mlpRow x a w1 b1 w2 b2 p f := rfl

/-- A row of the whole matrix is the formula on a block that holds the same row of x and of a: the layer restricts to blocks
    of rows. -/
theorem mlpRow_eq_mlpArr {n n' : ℕ} (xb ab : (⟨2, ![n, 128]⟩ : Shape).Idx → EReal) (X A : (⟨2, ![n', 128]⟩ : Shape).Idx → EReal)
    (w1 : (⟨2, ![128, 256]⟩ : Shape).Idx → EReal) (b1 : (⟨1, ![256]⟩ : Shape).Idx → EReal)
    (w2 : (⟨2, ![256, 128]⟩ : Shape).Idx → EReal) (b2 : (⟨1, ![128]⟩ : Shape).Idx → EReal)
    (p : Fin n) (f : Fin 128) (i : (⟨2, ![n', 128]⟩ : Shape).Idx) (hf : (i 1).val = f.val)
    (hx : ∀ k : Fin 128, xb (ix2 p k) = X (ix2 (i 0) k)) (ha : ∀ k : Fin 128, ab (ix2 p k) = A (ix2 (i 0) k)) :
    mlpRow xb ab w1 b1 w2 b2 p f = mlpArr X A w1 b1 w2 b2 i := by
  have e : (i 1 : Fin 128) = f := Fin.ext hf
  unfold mlpArr mlpRow
  rw [e]
  simp only [hx, ha]

end Cert.Gnn

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«143006_j74388833566752_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.MlpBlock.lean ====
/-
  What one grid point of the perceptron kernel computes, entry by entry.

  The body adds the node block and the aggregate block, multiplies by the first weight matrix on the matrix unit from a
  zero accumulator, adds the first bias along the rows, clamps at zero, multiplies by the second weight matrix, and adds
  the second bias. On the extended reals the changes of float format are the identity, so entry (p, f) of the result is
  the layer's formula on row p of the two blocks.
-/
import proofs.«143006_j74388833566752_1_alg».proof.Proof.Gen.KernelIdeal.Skeleton
import proofs.«143006_j74388833566752_1_alg».proof.Proof.Gen.KernelIdeal
import proofs.«143006_j74388833566752_1_alg».proof.Proof.MlpSpec
import proofs.«143006_j74388833566752_1_alg».proof.Proof.LibDotInnerHost
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Mlp

open Idealize.ShloMosaic Idealize.ShloMosaic.ValueIdx Idealize.ShloMosaic.DotInner Cert.KernelIdeal Cert.KernelIdeal.Gen

/-- The first product's dimension numbers say rows by columns. -/
theorem plain1 : Plain dot_S5000x128_S128x256_S5000x256_1_0_0_1_n_n :=
  plain_record dot_S5000x128_S128x256_S5000x256_1_0_0_1_n_n, S5000x128, S128x256

/-- The second product's dimension numbers say rows by columns. -/
theorem plain2 : Plain dot_S5000x256_S256x128_S5000x128_1_0_0_1_n_n :=
  plain_record dot_S5000x256_S256x128_S5000x128_1_0_0_1_n_n, S5000x256, S256x128

/-- A bias vector laid out as one row and repeated down the rows reads, at (p, j), the vector at j. -/
theorem bias_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix1 j) :=
  (broadcastTo_1b_ab_apply _ h2 p j).trans (shapeCast_a_1a_apply v h1 0 j)

/-- Entry (p, f) of what region 0's body stores is the layer's formula on row p of the blocks. -/
theorem pay_apply0 (x a : FVec Ideal S5000x128 .f32) (w1 : FVec Ideal S128x256 .f32) (b1 : FVec Ideal S256 .f32)
    (w2 : FVec Ideal S256x128 .f32) (b2 : FVec Ideal S128 .f32) (p : Fin 5000) (f : Fin 128) :
    k0_pay1 (F := Ideal) x a w1 b1 w2 b2 (ix2 p f) = Cert.Gnn.mlpRow x a w1 b1 w2 b2 p f := by
  unfold k0_pay1 Cert.Gnn.mlpRow
  simp only [shapeCast_self]
  refine (addf_apply _ _ _).trans ?_
  refine congrArg₂ (· + ·) ?_ (bias_apply b2 _ _ p f)
  refine (plain2.matmul_zero none _ _ p f).trans ?_
  refine Finset.sum_congr rfl fun j _ => ?_
  refine congrArg₂ (· * ·) ?_ rfl
  show max (_ + _) _ = _
  refine congrArg₂ max (congrArg₂ (· + ·) ?_ (bias_apply b1 _ _ p j)) Ideal.ofBits_zero_f32
  exact plain1.matmul_zero none _ _ p j

/-- Entry (p, f) of what region 1's body stores is the layer's formula on row p of the blocks. -/
theorem pay_apply1 (x a : FVec Ideal S5000x128 .f32) (w1 : FVec Ideal S128x256 .f32) (b1 : FVec Ideal S256 .f32)
    (w2 : FVec Ideal S256x128 .f32) (b2 : FVec Ideal S128 .f32) (p : Fin 5000) (f : Fin 128) :
    k1_pay1 (F := Ideal) x a w1 b1 w2 b2 (ix2 p f) = Cert.Gnn.mlpRow x a w1 b1 w2 b2 p f := by
  unfold k1_pay1 Cert.Gnn.mlpRow
  simp only [shapeCast_self]
  refine (addf_apply _ _ _).trans ?_
  refine congrArg₂ (· + ·) ?_ (bias_apply b2 _ _ p f)
  refine (plain2.matmul_zero none _ _ p f).trans ?_
  refine Finset.sum_congr rfl fun j _ => ?_
  refine congrArg₂ (· * ·) ?_ rfl
  show max (_ + _) _ = _
  refine congrArg₂ max (congrArg₂ (· + ·) ?_ (bias_apply b1 _ _ p j)) Ideal.ofBits_zero_f32
  exact plain1.matmul_zero none _ _ p j

/-- Entry (p, f) of what region 2's body stores is the layer's formula on row p of the blocks. -/
theorem pay_apply2 (x a : FVec Ideal S5000x128 .f32) (w1 : FVec Ideal S128x256 .f32) (b1 : FVec Ideal S256 .f32)
    (w2 : FVec Ideal S256x128 .f32) (b2 : FVec Ideal S128 .f32) (p : Fin 5000) (f : Fin 128) :
    k2_pay1 (F := Ideal) x a w1 b1 w2 b2 (ix2 p f) = Cert.Gnn.mlpRow x a w1 b1 w2 b2 p f := by
  unfold k2_pay1 Cert.Gnn.mlpRow
  simp only [shapeCast_self]
  refine (addf_apply _ _ _).trans ?_
  refine congrArg₂ (· + ·) ?_ (bias_apply b2 _ _ p f)
  refine (plain2.matmul_zero none _ _ p f).trans ?_
  refine Finset.sum_congr rfl fun j _ => ?_
  refine congrArg₂ (· * ·) ?_ rfl
  show max (_ + _) _ = _
  refine congrArg₂ max (congrArg₂ (· + ·) ?_ (bias_apply b1 _ _ p j)) Ideal.ofBits_zero_f32
  exact plain1.matmul_zero none _ _ p j

end Cert.KernelIdeal.Mlp

end
-- ==== Proof.Region0.lean ====
/-
  Region 0's output array, whole: the layer's formula of the arrays the region finds.

  The grid has ten points; point t takes rows 5000·t … 5000·t + 4999 of the node and aggregate arrays and the whole of
  the weights and biases, and writes back the same rows of the output. A row of the layer's output depends on the same
  row of its two matrix inputs only, so what point t writes back is block t of the layer's formula on the whole arrays,
  and the ten blocks tile the output.
-/
import proofs.«143006_j74388833566752_1_alg».proof.Proof.Gen.KernelIdeal.Frame
import proofs.«143006_j74388833566752_1_alg».proof.Proof.MlpBlock

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node, aggregate and output windows move together down the rows, one block per
    point; the weights and biases stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The layer's formula on the arrays the region finds. -/
def G (c : Dev nD) : S50000x128.Idx → EReal :=
  Cert.Gnn.mlpArr (V c main_arg0) (V c main_v3) (V c main_v5) (V c main_v7) (V c main_v9) (V c main_v11)

set_option maxHeartbeats 1000000 in
/-- What point t writes back is block t of the layer's formula. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x256) hz2, View.ld_unit_zero (S := S256x128) hz2,
    View.ld_unit_zero (S := S256) hz1, View.ld_unit_zero (S := S128) hz1]
  obtain ⟨e00, e01, e10, e11, e20, e21, e30, e40, e41, e50, e60, e61⟩ := idx_facts t
  funext j
  obtain ⟨p, f, rfl⟩ : ∃ (p : Fin 5000) (f : Fin 128), j = ix2 p f := ⟨j 0, j 1, eq_ix2 j⟩
  refine (Cert.KernelIdeal.Mlp.pay_apply0 _ _ _ _ _ _ p f).trans ?_
  show _ = G V c (((cfg0.win 6).blk t).view.emb (ix2 p f))
  unfold G
  have h2 : iblk0 V c 2 t = V c main_v5 := by
    funext y
    show V c main_v5 (((cfg0.win 2).blk t).view.emb y) = V c main_v5 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 256 + 1 * (y 1).val = (y 1).val; omega
  have h3 : iblk0 V c 3 t = V c main_v7 := by
    funext y
    show V c main_v7 (((cfg0.win 3).blk t).view.emb y) = V c main_v7 y
    refine congrArg _ (funext fun a => Fin.ext ?_)
    match a with
    | ⟨0, _⟩ => show win0_3.index t (0 : Fin 1) * 256 + 1 * (y 0).val = (y 0).val; omega
  have h4 : iblk0 V c 4 t = V c main_v9 := by
    funext y
    show V c main_v9 (((cfg0.win 4).blk t).view.emb y) = V c main_v9 y
    refine congrArg _ (funext fun a => Fin.ext ?_)
    match a with
    | ⟨0, _⟩ => show win0_4.index t (0 : Fin 2) * 256 + 1 * (y 0).val = (y 0).val; omega
    | ⟨1, _⟩ => show win0_4.index t (1 : Fin 2) * 128 + 1 * (y 1).val = (y 1).val; omega
  have h5 : iblk0 V c 5 t = V c main_v11 := by
    funext y
    show V c main_v11 (((cfg0.win 5).blk t).view.emb y) = V c main_v11 y
    refine congrArg _ (funext fun a => Fin.ext ?_)
    match a with
    | ⟨0, _⟩ => show win0_5.index t (0 : Fin 1) * 128 + 1 * (y 0).val = (y 0).val; omega
  rw [h2, h3, h4, h5]
  refine Cert.Gnn.mlpRow_eq_mlpArr _ _ _ _ _ _ _ _ p f _ ?_ (fun k => ?_) (fun k => ?_)
  · show win0_6.index t (1 : Fin 2) * 128 + 1 * f.val = f.val
    omega
  · show V c main_arg0 (((cfg0.win 0).blk t).view.emb (ix2 p k)) = V c main_arg0 (ix2 ((((cfg0.win 6).blk t).view.emb (ix2 p f)) 0) k)
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show V c main_v3 (((cfg0.win 1).blk t).view.emb (ix2 p k)) = V c main_v3 (ix2 ((((cfg0.win 6).blk t).view.emb (ix2 p f)) 0) k)
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v12).slice (win0_6.rect t)).set ↔ _
  rw [View.set_slice_whole, Rect.mem_set_unit]
  exact Iff.rfl

/-- Every row of the output lies in the block of the point its number divided by 5000 names. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e00, e01, e10, e11, e20, e21, e30, e40, e41, e50, e60, e61⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region is the layer's formula of the arrays the region finds. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  Region 1's output array, whole: the layer's formula of the arrays the region finds.

  The grid has ten points; point t takes rows 5000·t … 5000·t + 4999 of the node and aggregate arrays and the whole of
  the weights and biases, and writes back the same rows of the output. A row of the layer's output depends on the same
  row of its two matrix inputs only, so what point t writes back is block t of the layer's formula on the whole arrays,
  and the ten blocks tile the output.
-/
import proofs.«143006_j74388833566752_1_alg».proof.Proof.Gen.KernelIdeal.Frame
import proofs.«143006_j74388833566752_1_alg».proof.Proof.MlpBlock

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node, aggregate and output windows move together down the rows, one block per
    point; the weights and biases stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The layer's formula on the arrays the region finds. -/
def G (c : Dev nD) : S50000x128.Idx → EReal :=
  Cert.Gnn.mlpArr (V c main_v12) (V c main_v16) (V c main_v18) (V c main_v20) (V c main_v22) (V c main_v24)

set_option maxHeartbeats 1000000 in
/-- What point t writes back is block t of the layer's formula. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x256) hz2, View.ld_unit_zero (S := S256x128) hz2,
    View.ld_unit_zero (S := S256) hz1, View.ld_unit_zero (S := S128) hz1]
  obtain ⟨e00, e01, e10, e11, e20, e21, e30, e40, e41, e50, e60, e61⟩ := idx_facts t
  funext j
  obtain ⟨p, f, rfl⟩ : ∃ (p : Fin 5000) (f : Fin 128), j = ix2 p f := ⟨j 0, j 1, eq_ix2 j⟩
  refine (Cert.KernelIdeal.Mlp.pay_apply1 _ _ _ _ _ _ p f).trans ?_
  show _ = G V c (((cfg1.win 6).blk t).view.emb (ix2 p f))
  unfold G
  have h2 : iblk1 V c 2 t = V c main_v18 := by
    funext y
    show V c main_v18 (((cfg1.win 2).blk t).view.emb y) = V c main_v18 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  have h3 : iblk1 V c 3 t = V c main_v20 := by
    funext y
    show V c main_v20 (((cfg1.win 3).blk t).view.emb y) = V c main_v20 y
    refine congrArg _ (funext fun a => Fin.ext ?_)
    match a with
    | ⟨0, _⟩ => show win1_3.index t (0 : Fin 1) * 256 + 1 * (y 0).val = (y 0).val; omega
  have h4 : iblk1 V c 4 t = V c main_v22 := by
    funext y
    show V c main_v22 (((cfg1.win 4).blk t).view.emb y) = V c main_v22 y
    refine congrArg _ (funext fun a => Fin.ext ?_)
    match a with
    | ⟨0, _⟩ => show win1_4.index t (0 : Fin 2) * 256 + 1 * (y 0).val = (y 0).val; omega
    | ⟨1, _⟩ => show win1_4.index t (1 : Fin 2) * 128 + 1 * (y 1).val = (y 1).val; omega
  have h5 : iblk1 V c 5 t = V c main_v24 := by
    funext y
    show V c main_v24 (((cfg1.win 5).blk t).view.emb y) = V c main_v24 y
    refine congrArg _ (funext fun a => Fin.ext ?_)
    match a with
    | ⟨0, _⟩ => show win1_5.index t (0 : Fin 1) * 128 + 1 * (y 0).val = (y 0).val; omega
  rw [h2, h3, h4, h5]
  refine Cert.Gnn.mlpRow_eq_mlpArr _ _ _ _ _ _ _ _ p f _ ?_ (fun k => ?_) (fun k => ?_)
  · show win1_6.index t (1 : Fin 2) * 128 + 1 * f.val = f.val
    omega
  · show V c main_v12 (((cfg1.win 0).blk t).view.emb (ix2 p k)) = V c main_v12 (ix2 ((((cfg1.win 6).blk t).view.emb (ix2 p f)) 0) k)
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_v16 (((cfg1.win 1).blk t).view.emb (ix2 p k)) = V c main_v16 (ix2 ((((cfg1.win 6).blk t).view.emb (ix2 p f)) 0) k)
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25).slice (win1_6.rect t)).set ↔ _
  rw [View.set_slice_whole, Rect.mem_set_unit]
  exact Iff.rfl

/-- Every row of the output lies in the block of the point its number divided by 5000 names. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e40, e41, e50, e60, e61⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region is the layer's formula of the arrays the region finds. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.Region2.lean ====
/-
  Region 2's output array, whole: the layer's formula of the arrays the region finds.

  The grid has ten points; point t takes rows 5000·t … 5000·t + 4999 of the node and aggregate arrays and the whole of
  the weights and biases, and writes back the same rows of the output. A row of the layer's output depends on the same
  row of its two matrix inputs only, so what point t writes back is block t of the layer's formula on the whole arrays,
  and the ten blocks tile the output.
-/
import proofs.«143006_j74388833566752_1_alg».proof.Proof.Gen.KernelIdeal.Frame
import proofs.«143006_j74388833566752_1_alg».proof.Proof.MlpBlock

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node, aggregate and output windows move together down the rows, one block per
    point; the weights and biases stay at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The layer's formula on the arrays the region finds. -/
def G (c : Dev nD) : S50000x128.Idx → EReal :=
  Cert.Gnn.mlpArr (V c main_v25) (V c main_v29) (V c main_v31) (V c main_v33) (V c main_v35) (V c main_v37)

set_option maxHeartbeats 1000000 in
/-- What point t writes back is block t of the layer's formula. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x256) hz2, View.ld_unit_zero (S := S256x128) hz2,
    View.ld_unit_zero (S := S256) hz1, View.ld_unit_zero (S := S128) hz1]
  obtain ⟨e00, e01, e10, e11, e20, e21, e30, e40, e41, e50, e60, e61⟩ := idx_facts t
  funext j
  obtain ⟨p, f, rfl⟩ : ∃ (p : Fin 5000) (f : Fin 128), j = ix2 p f := ⟨j 0, j 1, eq_ix2 j⟩
  refine (Cert.KernelIdeal.Mlp.pay_apply2 _ _ _ _ _ _ p f).trans ?_
  show _ = G V c (((cfg2.win 6).blk t).view.emb (ix2 p f))
  unfold G
  have h2 : iblk2 V c 2 t = V c main_v31 := by
    funext y
    show V c main_v31 (((cfg2.win 2).blk t).view.emb y) = V c main_v31 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 256 + 1 * (y 1).val = (y 1).val; omega
  have h3 : iblk2 V c 3 t = V c main_v33 := by
    funext y
    show V c main_v33 (((cfg2.win 3).blk t).view.emb y) = V c main_v33 y
    refine congrArg _ (funext fun a => Fin.ext ?_)
    match a with
    | ⟨0, _⟩ => show win2_3.index t (0 : Fin 1) * 256 + 1 * (y 0).val = (y 0).val; omega
  have h4 : iblk2 V c 4 t = V c main_v35 := by
    funext y
    show V c main_v35 (((cfg2.win 4).blk t).view.emb y) = V c main_v35 y
    refine congrArg _ (funext fun a => Fin.ext ?_)
    match a with
    | ⟨0, _⟩ => show win2_4.index t (0 : Fin 2) * 256 + 1 * (y 0).val = (y 0).val; omega
    | ⟨1, _⟩ => show win2_4.index t (1 : Fin 2) * 128 + 1 * (y 1).val = (y 1).val; omega
  have h5 : iblk2 V c 5 t = V c main_v37 := by
    funext y
    show V c main_v37 (((cfg2.win 5).blk t).view.emb y) = V c main_v37 y
    refine congrArg _ (funext fun a => Fin.ext ?_)
    match a with
    | ⟨0, _⟩ => show win2_5.index t (0 : Fin 1) * 128 + 1 * (y 0).val = (y 0).val; omega
  rw [h2, h3, h4, h5]
  refine Cert.Gnn.mlpRow_eq_mlpArr _ _ _ _ _ _ _ _ p f _ ?_ (fun k => ?_) (fun k => ?_)
  · show win2_6.index t (1 : Fin 2) * 128 + 1 * f.val = f.val
    omega
  · show V c main_v25 (((cfg2.win 0).blk t).view.emb (ix2 p k)) = V c main_v25 (ix2 ((((cfg2.win 6).blk t).view.emb (ix2 p f)) 0) k)
    refine congrArg _ (funext fun a => Fin.ext ?_)
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  · show V c main_v29 (((cfg2.win 1).blk t).view.emb (ix2 p k)) = V c main_v29 (ix2 ((((cfg2.win 6).blk t).view.emb (ix2 p f)) 0) k)
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 128 + 1 * k.val = k.val; omega

/-- An index of the output array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v38).slice (win2_6.rect t)).set ↔ _
  rw [View.set_slice_whole, Rect.mem_set_unit]
  exact Iff.rfl

/-- Every row of the output lies in the block of the point its number divided by 5000 names. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e00, e01, e10, e11, e20, e21, e30, e40, e41, e50, e60, e61⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region is the layer's formula of the arrays the region finds. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.RefSpec.lean ====
/-
  The reference program's value, as closed terms over the contents of its seven arguments: one layer's
  neighbourhood sum (rows gathered at the source indices, out-of-range rows replaced by the fill word,
  summed into the zero array at the destination indices), one layer's two-layer perceptron with a
  rectifier between, the per-layer slices of the stacked weights and biases, and the three layers composed.
  Each definition is spelt as the reference's operations compose, at the ideal instance.
-/
import proofs.«143006_j74388833566752_1_alg».proof.Proof.Gen.ReferenceIdeal
import Idealize.ShloMosaic.PureOps.Ideal

noncomputable section

namespace Cert.Gnn

open Cert.ReferenceIdeal Cert.ReferenceIdeal.Gen Idealize.ShloMosaic

/-- The source indices with a negative index moved up by the row count (Python's wrap-around). -/
def wrapIdx (src : (⟨S800000, .i32⟩ : BufTy).Contents (Elt Ideal)) : (⟨S800000, .i32⟩ : BufTy).Contents (Elt Ideal) :=
  select (cmpi .slt src (broadcastInDim S800000 ![] bcast_S_S800000 (constantI S_ 32 0#32)))
    (addi src (broadcastInDim S800000 ![] bcast_S_S800000 (constantI S_ 32 50000#32)))
    src

/-- The wrapped indices as a column: the gather's index table. -/
def idxCol (src : (⟨S800000, .i32⟩ : BufTy).Contents (Elt Ideal)) : (⟨S800000x1, .i32⟩ : BufTy).Contents (Elt Ideal) :=
  broadcastInDim S800000x1 ![0] bcast_S800000_S800000x1_0 (wrapIdx src)

/-- Per edge, whether the wrapped index lies in `0 … 49999`: the conjunction along the column axis of
    `0 ≤ i` and `i ≤ 49999`. -/
def inRange (src : (⟨S800000, .i32⟩ : BufTy).Contents (Elt Ideal)) : (⟨S800000, .i1⟩ : BufTy).Contents (Elt Ideal) :=
  Host.reduce IntOp.andi
    (andi
      (cmpi .sge (idxCol src) (broadcastInDim S800000x1 ![] bcast_S_S800000x1 (constantI S_ 32 0#32)))
      (cmpi .sle (idxCol src)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of `x` at the source indices; a row whose index is out of range is the fill word throughout. -/
def take (x : (⟨S50000x128, .f32⟩ : BufTy).Contents (Elt Ideal)) (src : (⟨S800000, .i32⟩ : BufTy).Contents (Elt Ideal)) :
    (⟨S800000x128, .f32⟩ : BufTy).Contents (Elt Ideal) :=
  select (broadcastInDim S800000x128 ![0] bcast_S800000_S800000x128_0 (inRange src))
    (Host.gather gather_S50000x128_S800000x1_S800000x128_1_0_n_n_0_1_1128 x (idxCol src))
    (broadcastInDim S800000x128 ![] bcast_S_S800000x128 (constant (F := Ideal) S_ .f32 0x7FC00000#32))

/-- One layer's neighbourhood sum: the taken rows added into the zero array at the destination indices. -/
def agg (x : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (take x src)

/-- One layer's perceptron on `x + a`: a product with `w1`, the bias `b1` along the rows, the rectifier
    (the maximum with the zero array), a product with `w2`, the bias `b2` along the rows. -/
def mlp (x a : (⟨S50000x128, .f32⟩ : BufTy).Contents (Elt Ideal))
    (w1 : (⟨S128x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    (⟨S50000x128, .f32⟩ : BufTy).Contents (Elt Ideal) :=
  addf (F := Ideal)
    (Host.dotGeneral (F := Ideal) (φ₁ := .f32) (φ₂ := .f32) dot_S50000x256_S256x128_S50000x128_1_0_0_1_n_n none
      (maximumf (F := Ideal)
        (addf (F := Ideal)
          (Host.dotGeneral (F := Ideal) (φ₁ := .f32) (φ₂ := .f32) dot_S50000x128_S128x256_S50000x256_1_0_0_1_n_n none (addf (F := Ideal) x a) w1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32)))
      w2)
    (broadcastInDim S50000x128 ![0, 1] bcast_S1x128_S50000x128_0_1 (broadcastInDim S1x128 ![1] bcast_S128_S1x128_1 b2))

/-! The stacked parameters' slices, one per layer. -/

def w1At0 (W1 : (⟨S3x128x256, .f32⟩ : BufTy).Contents (Elt Ideal)) : (⟨S128x256, .f32⟩ : BufTy).Contents (Elt Ideal) :=
  shapeCast S128x256 (extractStridedSlice S1x128x256 ![0, 0, 0] W1 slices_S3x128x256_S1x128x256_0_0_0) shapeCasts_S1x128x256_S128x256
def w1At1 (W1 : (⟨S3x128x256, .f32⟩ : BufTy).Contents (Elt Ideal)) : (⟨S128x256, .f32⟩ : BufTy).Contents (Elt Ideal) :=
  shapeCast S128x256 (extractStridedSlice S1x128x256 ![1, 0, 0] W1 slices_S3x128x256_S1x128x256_1_0_0) shapeCasts_S1x128x256_S128x256
def w1At2 (W1 : (⟨S3x128x256, .f32⟩ : BufTy).Contents (Elt Ideal)) : (⟨S128x256, .f32⟩ : BufTy).Contents (Elt Ideal) :=
  shapeCast S128x256 (extractStridedSlice S1x128x256 ![2, 0, 0] W1 slices_S3x128x256_S1x128x256_2_0_0) shapeCasts_S1x128x256_S128x256

def b1At0 (B1 : (⟨S3x256, .f32⟩ : BufTy).Contents (Elt Ideal)) : (⟨S256, .f32⟩ : BufTy).Contents (Elt Ideal) :=
  shapeCast S256 (extractStridedSlice S1x256 ![0, 0] B1 slices_S3x256_S1x256_0_0) shapeCasts_S1x256_S256
def b1At1 (B1 : (⟨S3x256, .f32⟩ : BufTy).Contents (Elt Ideal)) : (⟨S256, .f32⟩ : BufTy).Contents (Elt Ideal) :=
  shapeCast S256 (extractStridedSlice S1x256 ![1, 0] B1 slices_S3x256_S1x256_1_0) shapeCasts_S1x256_S256
def b1At2 (B1 : (⟨S3x256, .f32⟩ : BufTy).Contents (Elt Ideal)) : (⟨S256, .f32⟩ : BufTy).Contents (Elt Ideal) :=
  shapeCast S256 (extractStridedSlice S1x256 ![2, 0] B1 slices_S3x256_S1x256_2_0) shapeCasts_S1x256_S256

def w2At0 (W2 : (⟨S3x256x128, .f32⟩ : BufTy).Contents (Elt Ideal)) : (⟨S256x128, .f32⟩ : BufTy).Contents (Elt Ideal) :=
  shapeCast S256x128 (extractStridedSlice S1x256x128 ![0, 0, 0] W2 slices_S3x256x128_S1x256x128_0_0_0) shapeCasts_S1x256x128_S256x128
def w2At1 (W2 : (⟨S3x256x128, .f32⟩ : BufTy).Contents (Elt Ideal)) : (⟨S256x128, .f32⟩ : BufTy).Contents (Elt Ideal) :=
  shapeCast S256x128 (extractStridedSlice S1x256x128 ![1, 0, 0] W2 slices_S3x256x128_S1x256x128_1_0_0) shapeCasts_S1x256x128_S256x128
def w2At2 (W2 : (⟨S3x256x128, .f32⟩ : BufTy).Contents (Elt Ideal)) : (⟨S256x128, .f32⟩ : BufTy).Contents (Elt Ideal) :=
  shapeCast S256x128 (extractStridedSlice S1x256x128 ![2, 0, 0] W2 slices_S3x256x128_S1x256x128_2_0_0) shapeCasts_S1x256x128_S256x128

def b2At0 (B2 : (⟨S3x128, .f32⟩ : BufTy).Contents (Elt Ideal)) : (⟨S128, .f32⟩ : BufTy).Contents (Elt Ideal) :=
  shapeCast S128 (extractStridedSlice S1x128 ![0, 0] B2 slices_S3x128_S1x128_0_0) shapeCasts_S1x128_S128
def b2At1 (B2 : (⟨S3x128, .f32⟩ : BufTy).Contents (Elt Ideal)) : (⟨S128, .f32⟩ : BufTy).Contents (Elt Ideal) :=
  shapeCast S128 (extractStridedSlice S1x128 ![1, 0] B2 slices_S3x128_S1x128_1_0) shapeCasts_S1x128_S128
def b2At2 (B2 : (⟨S3x128, .f32⟩ : BufTy).Contents (Elt Ideal)) : (⟨S128, .f32⟩ : BufTy).Contents (Elt Ideal) :=
  shapeCast S128 (extractStridedSlice S1x128 ![2, 0] B2 slices_S3x128_S1x128_2_0) shapeCasts_S1x128_S128

/-! The layers: each the perceptron of its input and its neighbourhood sum, at its slice of the parameters. -/

def layer0 (x : (⟨S50000x128, .f32⟩ : BufTy).Contents (Elt Ideal))
    (W1 : (⟨S3x128x256, .f32⟩ : BufTy).Contents (Elt Ideal)) (B1 : (⟨S3x256, .f32⟩ : BufTy).Contents (Elt Ideal))
    (W2 : (⟨S3x256x128, .f32⟩ : BufTy).Contents (Elt Ideal)) (B2 : (⟨S3x128, .f32⟩ : BufTy).Contents (Elt Ideal))
    (src dst : (⟨S800000, .i32⟩ : BufTy).Contents (Elt Ideal)) : (⟨S50000x128, .f32⟩ : BufTy).Contents (Elt Ideal) :=
  mlp x (agg x src dst) (w1At0 W1) (b1At0 B1) (w2At0 W2) (b2At0 B2)

def layer1 (x : (⟨S50000x128, .f32⟩ : BufTy).Contents (Elt Ideal))
    (W1 : (⟨S3x128x256, .f32⟩ : BufTy).Contents (Elt Ideal)) (B1 : (⟨S3x256, .f32⟩ : BufTy).Contents (Elt Ideal))
    (W2 : (⟨S3x256x128, .f32⟩ : BufTy).Contents (Elt Ideal)) (B2 : (⟨S3x128, .f32⟩ : BufTy).Contents (Elt Ideal))
    (src dst : (⟨S800000, .i32⟩ : BufTy).Contents (Elt Ideal)) : (⟨S50000x128, .f32⟩ : BufTy).Contents (Elt Ideal) :=
  mlp x (agg x src dst) (w1At1 W1) (b1At1 B1) (w2At1 W2) (b2At1 B2)

def layer2 (x : (⟨S50000x128, .f32⟩ : BufTy).Contents (Elt Ideal))
    (W1 : (⟨S3x128x256, .f32⟩ : BufTy).Contents (Elt Ideal)) (B1 : (⟨S3x256, .f32⟩ : BufTy).Contents (Elt Ideal))
    (W2 : (⟨S3x256x128, .f32⟩ : BufTy).Contents (Elt Ideal)) (B2 : (⟨S3x128, .f32⟩ : BufTy).Contents (Elt Ideal))
    (src dst : (⟨S800000, .i32⟩ : BufTy).Contents (Elt Ideal)) : (⟨S50000x128, .f32⟩ : BufTy).Contents (Elt Ideal) :=
  mlp x (agg x src dst) (w1At2 W1) (b1At2 B1) (w2At2 W2) (b2At2 B2)

/-- What the reference computes from its seven arguments' contents: the three layers in order. -/
def result (x : (⟨S50000x128, .f32⟩ : BufTy).Contents (Elt Ideal))
    (W1 : (⟨S3x128x256, .f32⟩ : BufTy).Contents (Elt Ideal)) (B1 : (⟨S3x256, .f32⟩ : BufTy).Contents (Elt Ideal))
    (W2 : (⟨S3x256x128, .f32⟩ : BufTy).Contents (Elt Ideal)) (B2 : (⟨S3x128, .f32⟩ : BufTy).Contents (Elt Ideal))
    (src dst : (⟨S800000, .i32⟩ : BufTy).Contents (Elt Ideal)) : (⟨S50000x128, .f32⟩ : BufTy).Contents (Elt Ideal) :=
  layer2 (layer1 (layer0 x W1 B1 W2 B2 src dst) W1 B1 W2 B2 src dst) W1 B1 W2 B2 src dst

end Cert.Gnn

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibTransport.lean ====
/-
  A typed reference moves a value between the tensor type it carries and its buffer's own type along the equation between
  the two. Whatever the equation's proof, the moved value is the value: it equals any term of the target type that is
  heterogeneously equal to it — in particular the same term read at the other type when the two types compute to one.
-/
import Idealize.ShloMosaic.Lib.StableHlo

namespace Idealize.ShloMosaic.StableHlo.TRef

variable {sig : RefSig} {Val : EltTy → Type} {T : BufTy}

/-- Contents read through a typed reference are the contents. -/
theorem ofBuf_eq_of_heq (x : TRef sig T) (v : x.ref.ty.Contents Val) (w : T.Contents Val) (h : HEq v w) : x.ofBuf v = w :=
  cast_eq_iff_heq.mpr h

/-- Contents written through a typed reference are the contents. -/
theorem toBuf_eq_of_heq (x : TRef sig T) (w : T.Contents Val) (v : x.ref.ty.Contents Val) (h : HEq w v) : x.toBuf w = v :=
  cast_eq_iff_heq.mpr h

end Idealize.ShloMosaic.StableHlo.TRef
-- ==== Proof.KHost.lean ====
/-
  What each region of the kernel program finds in its input arrays, in terms of the contents at the previous boundary.

  Before each region two stretches of host operations run: the gather of the node features' rows at the source indices
  (negative indices wrapped, out-of-range rows filled), then the scatter-add of those rows at the destination indices into a
  zero array, and the slices of the stacked weights and biases for the layer. None of them writes an argument array or the
  previous region's output. Read at the region's six input arrays they are the neighbourhood sum and the layer's parameter
  slices of the contents before the stretches — the very operations the reference applies, over the same dimension numbers.
-/
import proofs.«143006_j74388833566752_1_alg».proof.Proof.Gen.KernelIdeal.Launch
import proofs.«143006_j74388833566752_1_alg».proof.Proof.RefSpec
import proofs.«143006_j74388833566752_1_alg».proof.Proof.LibTypedRefs
import proofs.«143006_j74388833566752_1_alg».proof.Proof.LibTransport
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

/-! ## Layer 0: the two host stretches before region 0 -/

section Layer0
variable (P : Valuation τ sig (Elt Ideal))

/-- The node features pass through both stretches. -/
theorem e0_x : after hostOps0_1 (after hostOps0 P) (Proc.devRef .tc main_arg0) = P (Proc.devRef .tc main_arg0) := by
  after_results_simp
/-- The aggregate array holds the neighbourhood sum of the node features at the edge lists. -/
theorem e0_agg : after hostOps0_1 (after hostOps0 P) (Proc.devRef .tc main_v3)
    = Cert.Gnn.agg (P (Proc.devRef .tc main_arg0)) (P (Proc.devRef .tc main_arg5)) (P (Proc.devRef .tc main_arg6)) := by
  after_results_simp
  simp only [TRef.ofBuf_toBuf]
  have e5 : ∀ h1 h2 h3, (TRef.of main_arg5 h1 h2 h3 : TRef sig ⟨S800000, .i32⟩).ofBuf (P (Proc.devRef .tc main_arg5))
      = P (Proc.devRef .tc main_arg5) := fun _ _ _ => TRef.ofBuf_eq_of_heq _ _ _ HEq.rfl
  have ex : ∀ h1 h2 h3, (TRef.of main_arg0 h1 h2 h3 : TRef sig ⟨S50000x128, .f32⟩).ofBuf (P (Proc.devRef .tc main_arg0))
      = P (Proc.devRef .tc main_arg0) := fun _ _ _ => TRef.ofBuf_eq_of_heq _ _ _ HEq.rfl
  have et : ∀ h1 h2 h3 (w : (⟨S800000x128, .f32⟩ : BufTy).Contents (Elt Ideal)),
      (TRef.of main_v0 h1 h2 h3 : TRef sig ⟨S800000x128, .f32⟩).toBuf w = w := fun _ _ _ _ => TRef.toBuf_eq_of_heq _ _ _ HEq.rfl
  simp only [e5, ex, et]
  rfl
theorem e0_w1 : after hostOps0_1 (after hostOps0 P) (Proc.devRef .tc main_v5) = Cert.Gnn.w1At0 (P (Proc.devRef .tc main_arg1)) := by
  after_results_simp
  rfl
theorem e0_b1 : after hostOps0_1 (after hostOps0 P) (Proc.devRef .tc main_v7) = Cert.Gnn.b1At0 (P (Proc.devRef .tc main_arg2)) := by
  after_results_simp
  rfl
theorem e0_w2 : after hostOps0_1 (after hostOps0 P) (Proc.devRef .tc main_v9) = Cert.Gnn.w2At0 (P (Proc.devRef .tc main_arg3)) := by
  after_results_simp
  rfl
theorem e0_b2 : after hostOps0_1 (after hostOps0 P) (Proc.devRef .tc main_v11) = Cert.Gnn.b2At0 (P (Proc.devRef .tc main_arg4)) := by
  after_results_simp
  rfl
theorem e0_arg1 : after hostOps0_1 (after hostOps0 P) (Proc.devRef .tc main_arg1) = P (Proc.devRef .tc main_arg1) := by
  after_results_simp
theorem e0_arg2 : after hostOps0_1 (after hostOps0 P) (Proc.devRef .tc main_arg2) = P (Proc.devRef .tc main_arg2) := by
  after_results_simp
theorem e0_arg3 : after hostOps0_1 (after hostOps0 P) (Proc.devRef .tc main_arg3) = P (Proc.devRef .tc main_arg3) := by
  after_results_simp
theorem e0_arg4 : after hostOps0_1 (after hostOps0 P) (Proc.devRef .tc main_arg4) = P (Proc.devRef .tc main_arg4) := by
  after_results_simp
theorem e0_arg5 : after hostOps0_1 (after hostOps0 P) (Proc.devRef .tc main_arg5) = P (Proc.devRef .tc main_arg5) := by
  after_results_simp
theorem e0_arg6 : after hostOps0_1 (after hostOps0 P) (Proc.devRef .tc main_arg6) = P (Proc.devRef .tc main_arg6) := by
  after_results_simp

end Layer0

/-! ## Layer 1: the two host stretches before region 1 -/

section Layer1
variable (P : Valuation τ sig (Elt Ideal))

/-- The node features pass through both stretches. -/
theorem e1_x : after hostOps1_1 (after hostOps1 P) (Proc.devRef .tc main_v12) = P (Proc.devRef .tc main_v12) := by
  after_results_simp
/-- The aggregate array holds the neighbourhood sum of the node features at the edge lists. -/
theorem e1_agg : after hostOps1_1 (after hostOps1 P) (Proc.devRef .tc main_v16)
    = Cert.Gnn.agg (P (Proc.devRef .tc main_v12)) (P (Proc.devRef .tc main_arg5)) (P (Proc.devRef .tc main_arg6)) := by
  after_results_simp
  simp only [TRef.ofBuf_toBuf]
  have e5 : ∀ h1 h2 h3, (TRef.of main_arg5 h1 h2 h3 : TRef sig ⟨S800000, .i32⟩).ofBuf (P (Proc.devRef .tc main_arg5))
      = P (Proc.devRef .tc main_arg5) := fun _ _ _ => TRef.ofBuf_eq_of_heq _ _ _ HEq.rfl
  have ex : ∀ h1 h2 h3, (TRef.of main_v12 h1 h2 h3 : TRef sig ⟨S50000x128, .f32⟩).ofBuf (P (Proc.devRef .tc main_v12))
      = P (Proc.devRef .tc main_v12) := fun _ _ _ => TRef.ofBuf_eq_of_heq _ _ _ HEq.rfl
  have et : ∀ h1 h2 h3 (w : (⟨S800000x128, .f32⟩ : BufTy).Contents (Elt Ideal)),
      (TRef.of main_v13 h1 h2 h3 : TRef sig ⟨S800000x128, .f32⟩).toBuf w = w := fun _ _ _ _ => TRef.toBuf_eq_of_heq _ _ _ HEq.rfl
  simp only [e5, ex, et]
  rfl
theorem e1_w1 : after hostOps1_1 (after hostOps1 P) (Proc.devRef .tc main_v18) = Cert.Gnn.w1At1 (P (Proc.devRef .tc main_arg1)) := by
  after_results_simp
  rfl
theorem e1_b1 : after hostOps1_1 (after hostOps1 P) (Proc.devRef .tc main_v20) = Cert.Gnn.b1At1 (P (Proc.devRef .tc main_arg2)) := by
  after_results_simp
  rfl
theorem e1_w2 : after hostOps1_1 (after hostOps1 P) (Proc.devRef .tc main_v22) = Cert.Gnn.w2At1 (P (Proc.devRef .tc main_arg3)) := by
  after_results_simp
  rfl
theorem e1_b2 : after hostOps1_1 (after hostOps1 P) (Proc.devRef .tc main_v24) = Cert.Gnn.b2At1 (P (Proc.devRef .tc main_arg4)) := by
  after_results_simp
  rfl
theorem e1_arg1 : after hostOps1_1 (after hostOps1 P) (Proc.devRef .tc main_arg1) = P (Proc.devRef .tc main_arg1) := by
  after_results_simp
theorem e1_arg2 : after hostOps1_1 (after hostOps1 P) (Proc.devRef .tc main_arg2) = P (Proc.devRef .tc main_arg2) := by
  after_results_simp
theorem e1_arg3 : after hostOps1_1 (after hostOps1 P) (Proc.devRef .tc main_arg3) = P (Proc.devRef .tc main_arg3) := by
  after_results_simp
theorem e1_arg4 : after hostOps1_1 (after hostOps1 P) (Proc.devRef .tc main_arg4) = P (Proc.devRef .tc main_arg4) := by
  after_results_simp
theorem e1_arg5 : after hostOps1_1 (after hostOps1 P) (Proc.devRef .tc main_arg5) = P (Proc.devRef .tc main_arg5) := by
  after_results_simp
theorem e1_arg6 : after hostOps1_1 (after hostOps1 P) (Proc.devRef .tc main_arg6) = P (Proc.devRef .tc main_arg6) := by
  after_results_simp

end Layer1

/-! ## Layer 2: the two host stretches before region 2 -/

section Layer2
variable (P : Valuation τ sig (Elt Ideal))

/-- The node features pass through both stretches. -/
theorem e2_x : after hostOps2_1 (after hostOps2 P) (Proc.devRef .tc main_v25) = P (Proc.devRef .tc main_v25) := by
  after_results_simp
/-- The aggregate array holds the neighbourhood sum of the node features at the edge lists. -/
theorem e2_agg : after hostOps2_1 (after hostOps2 P) (Proc.devRef .tc main_v29)
    = Cert.Gnn.agg (P (Proc.devRef .tc main_v25)) (P (Proc.devRef .tc main_arg5)) (P (Proc.devRef .tc main_arg6)) := by
  after_results_simp
  simp only [TRef.ofBuf_toBuf]
  have e5 : ∀ h1 h2 h3, (TRef.of main_arg5 h1 h2 h3 : TRef sig ⟨S800000, .i32⟩).ofBuf (P (Proc.devRef .tc main_arg5))
      = P (Proc.devRef .tc main_arg5) := fun _ _ _ => TRef.ofBuf_eq_of_heq _ _ _ HEq.rfl
  have ex : ∀ h1 h2 h3, (TRef.of main_v25 h1 h2 h3 : TRef sig ⟨S50000x128, .f32⟩).ofBuf (P (Proc.devRef .tc main_v25))
      = P (Proc.devRef .tc main_v25) := fun _ _ _ => TRef.ofBuf_eq_of_heq _ _ _ HEq.rfl
  have et : ∀ h1 h2 h3 (w : (⟨S800000x128, .f32⟩ : BufTy).Contents (Elt Ideal)),
      (TRef.of main_v26 h1 h2 h3 : TRef sig ⟨S800000x128, .f32⟩).toBuf w = w := fun _ _ _ _ => TRef.toBuf_eq_of_heq _ _ _ HEq.rfl
  simp only [e5, ex, et]
  rfl
theorem e2_w1 : after hostOps2_1 (after hostOps2 P) (Proc.devRef .tc main_v31) = Cert.Gnn.w1At2 (P (Proc.devRef .tc main_arg1)) := by
  after_results_simp
  rfl
theorem e2_b1 : after hostOps2_1 (after hostOps2 P) (Proc.devRef .tc main_v33) = Cert.Gnn.b1At2 (P (Proc.devRef .tc main_arg2)) := by
  after_results_simp
  rfl
theorem e2_w2 : after hostOps2_1 (after hostOps2 P) (Proc.devRef .tc main_v35) = Cert.Gnn.w2At2 (P (Proc.devRef .tc main_arg3)) := by
  after_results_simp
  rfl
theorem e2_b2 : after hostOps2_1 (after hostOps2 P) (Proc.devRef .tc main_v37) = Cert.Gnn.b2At2 (P (Proc.devRef .tc main_arg4)) := by
  after_results_simp
  rfl
theorem e2_arg1 : after hostOps2_1 (after hostOps2 P) (Proc.devRef .tc main_arg1) = P (Proc.devRef .tc main_arg1) := by
  after_results_simp
theorem e2_arg2 : after hostOps2_1 (after hostOps2 P) (Proc.devRef .tc main_arg2) = P (Proc.devRef .tc main_arg2) := by
  after_results_simp
theorem e2_arg3 : after hostOps2_1 (after hostOps2 P) (Proc.devRef .tc main_arg3) = P (Proc.devRef .tc main_arg3) := by
  after_results_simp
theorem e2_arg4 : after hostOps2_1 (after hostOps2 P) (Proc.devRef .tc main_arg4) = P (Proc.devRef .tc main_arg4) := by
  after_results_simp
theorem e2_arg5 : after hostOps2_1 (after hostOps2 P) (Proc.devRef .tc main_arg5) = P (Proc.devRef .tc main_arg5) := by
  after_results_simp
theorem e2_arg6 : after hostOps2_1 (after hostOps2 P) (Proc.devRef .tc main_arg6) = P (Proc.devRef .tc main_arg6) := by
  after_results_simp

end Layer2

end Cert.KernelIdeal.HostRead

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«143006_j74388833566752_1_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.MlpRef.lean ====
/-
  The reference's perceptron, spelt as host operations, is the layer's formula entry by entry.

  A host matrix product is the sum over the contracted axis; the bias broadcast along the rows reads the bias at the
  column; the rectifier is the maximum with the zero array, which reads 0 everywhere. So entry (p, f) of
  ((x + a) · w1 + b1)⁺ · w2 + b2 is Σ_j max(Σ_k (x[p,k] + a[p,k]) · w1[k,j] + b1[j], 0) · w2[j,f] + b2[f].
-/
import proofs.«143006_j74388833566752_1_alg».proof.Proof.RefSpec
import proofs.«143006_j74388833566752_1_alg».proof.Proof.MlpSpec
import proofs.«143006_j74388833566752_1_alg».proof.Proof.LibDenseLayer
import Idealize.ShloMosaic.PureOps.Ideal.Laws
import Idealize.ShloMosaic.Lib.ValueIdx

noncomputable section

open scoped BigOperators

namespace Cert.Gnn

open Idealize.ShloMosaic Idealize.ShloMosaic.ValueIdx Idealize.ShloMosaic.DotInner Idealize.ShloMosaic.DenseLayer
open Cert.ReferenceIdeal Cert.ReferenceIdeal.Gen

/-- The first product's dimension numbers say rows by columns. -/
theorem plainRef1 : Plain dot_S50000x128_S128x256_S50000x256_1_0_0_1_n_n :=
  plain_record dot_S50000x128_S128x256_S50000x256_1_0_0_1_n_n, S50000x128, S128x256

/-- The second product's dimension numbers say rows by columns. -/
theorem plainRef2 : Plain dot_S50000x256_S256x128_S50000x128_1_0_0_1_n_n :=
  plain_record dot_S50000x256_S256x128_S50000x128_1_0_0_1_n_n, S50000x256, S256x128

/-- The host-form perceptron is the formula, on whole matrices. -/
theorem mlp_eq_mlpArr (x a : (⟨S50000x128, .f32⟩ : BufTy).Contents (Elt Ideal))
    (w1 : (⟨S128x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    mlp x a w1 b1 w2 b2 = mlpArr x a w1 b1 w2 b2 := by
  funext i
  obtain ⟨p, f, rfl⟩ : ∃ (p : Fin 50000) (f : Fin 128), i = ix2 p f := ⟨i 0, i 1, eq_ix2 i⟩
  rw [mlpArr_apply]
  unfold mlp mlpRow
  refine (dense_apply plainRef2 _ w2 b2 _ _ p f).trans ?_
  refine congrArg₂ (· + ·) (Finset.sum_congr rfl fun j _ => congrArg₂ (· * ·) ?_ rfl) rfl
  refine (maximumf_apply _ _ _).trans ?_
  refine congrArg₂ max ?_ (zero_splat_apply _ _)
  exact dense_apply plainRef1 (addf (F := Ideal) (φ := .f32) x a) w1 b1 _ _ p j

end Cert.Gnn

end
-- ==== Proof.KValue.lean ====
/-
  The kernel program's result array, after the run, is the three message-passing layers of the launch contents.

  At each region's entry the node array holds the previous layer's output (the first layer's: the argument), the aggregate
  array its neighbourhood sum, and the weight and bias arrays the layer's slices; the region leaves the layer's formula of
  them in its output array; the host-form perceptron of the reference is that formula. No host operation and no region
  writes an argument array, so every layer reads the same parameters and edge lists.
-/
import proofs.«143006_j74388833566752_1_alg».proof.Proof.Gen.KernelIdeal.Frame
import proofs.«143006_j74388833566752_1_alg».proof.Proof.Region0
import proofs.«143006_j74388833566752_1_alg».proof.Proof.Region1
import proofs.«143006_j74388833566752_1_alg».proof.Proof.Region2
import proofs.«143006_j74388833566752_1_alg».proof.Proof.KHost
import proofs.«143006_j74388833566752_1_alg».proof.Proof.MlpRef

set_option maxRecDepth 16384

noncomputable section

namespace Cert.KernelIdeal.ResultValue

open Idealize.ShloMosaic Idealize.ShloMosaic.TcCoe Idealize.SL.Sem
open Cert.KernelIdeal Cert.KernelIdeal.Gen Cert.KernelIdeal.HostRead

variable (m : (ℓ : Loc nD τ sig) → Buf (Elt Ideal) ℓ) (ρ : Dev nD → PrngReg) (c : Dev nD)

/-! ## Layer 0 -/

/-- Region 0 leaves the first layer of the launch contents in its output array. -/
theorem out0 : W3 m ρ c (Proc.devRef .tc main_v12) = Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W3_arr m ρ c 6).trans (Region0.final (V2 m ρ) c)).trans ?_
  have ex : V2 m ρ c main_arg0 = (m ((c : Thread nD τ).loc main_arg0)) := e0_x (W0 m ρ c)
  have ea : V2 m ρ c main_v3 = Cert.Gnn.agg (m ((c : Thread nD τ).loc main_arg0)) (m ((c : Thread nD τ).loc main_arg5)) (m ((c : Thread nD τ).loc main_arg6)) := e0_agg (W0 m ρ c)
  have ew1 : V2 m ρ c main_v5 = Cert.Gnn.w1At0 (m ((c : Thread nD τ).loc main_arg1)) := e0_w1 (W0 m ρ c)
  have eb1 : V2 m ρ c main_v7 = Cert.Gnn.b1At0 (m ((c : Thread nD τ).loc main_arg2)) := e0_b1 (W0 m ρ c)
  have ew2 : V2 m ρ c main_v9 = Cert.Gnn.w2At0 (m ((c : Thread nD τ).loc main_arg3)) := e0_w2 (W0 m ρ c)
  have eb2 : V2 m ρ c main_v11 = Cert.Gnn.b2At0 (m ((c : Thread nD τ).loc main_arg4)) := e0_b2 (W0 m ρ c)
  unfold Region0.G Cert.Gnn.layer0
  rw [ex, ea, ew1, eb1, ew2, eb2, Cert.Gnn.mlp_eq_mlpArr]

theorem arg1_at3 : W3 m ρ c (Proc.devRef .tc main_arg1) = (m ((c : Thread nD τ).loc main_arg1)) :=
  (W3_of_ne m ρ c main_arg1 (by decide)).trans (e0_arg1 (W0 m ρ c))
theorem arg2_at3 : W3 m ρ c (Proc.devRef .tc main_arg2) = (m ((c : Thread nD τ).loc main_arg2)) :=
  (W3_of_ne m ρ c main_arg2 (by decide)).trans (e0_arg2 (W0 m ρ c))
theorem arg3_at3 : W3 m ρ c (Proc.devRef .tc main_arg3) = (m ((c : Thread nD τ).loc main_arg3)) :=
  (W3_of_ne m ρ c main_arg3 (by decide)).trans (e0_arg3 (W0 m ρ c))
theorem arg4_at3 : W3 m ρ c (Proc.devRef .tc main_arg4) = (m ((c : Thread nD τ).loc main_arg4)) :=
  (W3_of_ne m ρ c main_arg4 (by decide)).trans (e0_arg4 (W0 m ρ c))
theorem arg5_at3 : W3 m ρ c (Proc.devRef .tc main_arg5) = (m ((c : Thread nD τ).loc main_arg5)) :=
  (W3_of_ne m ρ c main_arg5 (by decide)).trans (e0_arg5 (W0 m ρ c))
theorem arg6_at3 : W3 m ρ c (Proc.devRef .tc main_arg6) = (m ((c : Thread nD τ).loc main_arg6)) :=
  (W3_of_ne m ρ c main_arg6 (by decide)).trans (e0_arg6 (W0 m ρ c))

/-! ## Layer 1 -/

/-- Region 1 leaves the second layer of region 0's output in its output array. -/
theorem out1 : W6 m ρ c (Proc.devRef .tc main_v25)
    = Cert.Gnn.layer1 (Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m ρ c 6).trans (Region1.final (V5 m ρ) c)).trans ?_
  have ex : V5 m ρ c main_v12 = Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (e1_x (W3 m ρ c)).trans (out0 m ρ c)
  have ea : V5 m ρ c main_v16 = Cert.Gnn.agg (Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (m ((c : Thread nD τ).loc main_arg6)) := by
    refine (e1_agg (W3 m ρ c)).trans ?_
    rw [out0 m ρ c, arg5_at3 m ρ c, arg6_at3 m ρ c]
  have ew1 : V5 m ρ c main_v18 = Cert.Gnn.w1At1 (m ((c : Thread nD τ).loc main_arg1)) := by
    refine (e1_w1 (W3 m ρ c)).trans ?_
    rw [arg1_at3 m ρ c]
  have eb1 : V5 m ρ c main_v20 = Cert.Gnn.b1At1 (m ((c : Thread nD τ).loc main_arg2)) := by
    refine (e1_b1 (W3 m ρ c)).trans ?_
    rw [arg2_at3 m ρ c]
  have ew2 : V5 m ρ c main_v22 = Cert.Gnn.w2At1 (m ((c : Thread nD τ).loc main_arg3)) := by
    refine (e1_w2 (W3 m ρ c)).trans ?_
    rw [arg3_at3 m ρ c]
  have eb2 : V5 m ρ c main_v24 = Cert.Gnn.b2At1 (m ((c : Thread nD τ).loc main_arg4)) := by
    refine (e1_b2 (W3 m ρ c)).trans ?_
    rw [arg4_at3 m ρ c]
  unfold Region1.G Cert.Gnn.layer1
  rw [ex, ea, ew1, eb1, ew2, eb2, Cert.Gnn.mlp_eq_mlpArr]

theorem arg1_at6 : W6 m ρ c (Proc.devRef .tc main_arg1) = (m ((c : Thread nD τ).loc main_arg1)) :=
  (W6_of_ne m ρ c main_arg1 (by decide)).trans ((e1_arg1 (W3 m ρ c)).trans (arg1_at3 m ρ c))
theorem arg2_at6 : W6 m ρ c (Proc.devRef .tc main_arg2) = (m ((c : Thread nD τ).loc main_arg2)) :=
  (W6_of_ne m ρ c main_arg2 (by decide)).trans ((e1_arg2 (W3 m ρ c)).trans (arg2_at3 m ρ c))
theorem arg3_at6 : W6 m ρ c (Proc.devRef .tc main_arg3) = (m ((c : Thread nD τ).loc main_arg3)) :=
  (W6_of_ne m ρ c main_arg3 (by decide)).trans ((e1_arg3 (W3 m ρ c)).trans (arg3_at3 m ρ c))
theorem arg4_at6 : W6 m ρ c (Proc.devRef .tc main_arg4) = (m ((c : Thread nD τ).loc main_arg4)) :=
  (W6_of_ne m ρ c main_arg4 (by decide)).trans ((e1_arg4 (W3 m ρ c)).trans (arg4_at3 m ρ c))
theorem arg5_at6 : W6 m ρ c (Proc.devRef .tc main_arg5) = (m ((c : Thread nD τ).loc main_arg5)) :=
  (W6_of_ne m ρ c main_arg5 (by decide)).trans ((e1_arg5 (W3 m ρ c)).trans (arg5_at3 m ρ c))
theorem arg6_at6 : W6 m ρ c (Proc.devRef .tc main_arg6) = (m ((c : Thread nD τ).loc main_arg6)) :=
  (W6_of_ne m ρ c main_arg6 (by decide)).trans ((e1_arg6 (W3 m ρ c)).trans (arg6_at3 m ρ c))

/-! ## Layer 2 -/

/-- Region 2 leaves the third layer of region 1's output in its output array: the program's result. -/
theorem out2 : W9 m ρ c (Proc.devRef .tc main_v38) = Cert.Gnn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W9_arr m ρ c 6).trans (Region2.final (V8 m ρ) c)).trans ?_
  have ex : V8 m ρ c main_v25 = Cert.Gnn.layer1 (Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (e2_x (W6 m ρ c)).trans (out1 m ρ c)
  have ea : V8 m ρ c main_v29 = Cert.Gnn.agg (Cert.Gnn.layer1 (Cert.Gnn.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (m ((c : Thread nD τ).loc main_arg6)) := by
    refine (e2_agg (W6 m ρ c)).trans ?_
    rw [out1 m ρ c, arg5_at6 m ρ c, arg6_at6 m ρ c]
  have ew1 : V8 m ρ c main_v31 = Cert.Gnn.w1At2 (m ((c : Thread nD τ).loc main_arg1)) := by
    refine (e2_w1 (W6 m ρ c)).trans ?_
    rw [arg1_at6 m ρ c]
  have eb1 : V8 m ρ c main_v33 = Cert.Gnn.b1At2 (m ((c : Thread nD τ).loc main_arg2)) := by
    refine (e2_b1 (W6 m ρ c)).trans ?_
    rw [arg2_at6 m ρ c]
  have ew2 : V8 m ρ c main_v35 = Cert.Gnn.w2At2 (m ((c : Thread nD τ).loc main_arg3)) := by
    refine (e2_w2 (W6 m ρ c)).trans ?_
    rw [arg3_at6 m ρ c]
  have eb2 : V8 m ρ c main_v37 = Cert.Gnn.b2At2 (m ((c : Thread nD τ).loc main_arg4)) := by
    refine (e2_b2 (W6 m ρ c)).trans ?_
    rw [arg4_at6 m ρ c]
  unfold Region2.G Cert.Gnn.result Cert.Gnn.layer2
  rw [ex, ea, ew1, eb1, ew2, eb2, Cert.Gnn.mlp_eq_mlpArr]

end Cert.KernelIdeal.ResultValue

end
-- ==== Proof.RefOps.lean ====
/-
  The reference program's @main as three lists of host operations, one per layer, in program order: the
  functions it calls (the row gather with its index wrap-around and range mask, the rectifier) written out
  at their call sites over the buffers each call names. Every operation touches TensorCore buffers only.
-/
import proofs.«143006_j74388833566752_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Layer 0: the gather of `x`'s rows (23 operations), the scatter-add and the first product with its bias (13),
    the rectifier (3), the second product with its bias (8). -/
abbrev ops0 : List (HloOp τ sig (Elt F)) :=
  [ StableHlo.TRef.nullary main_call0.c (constantI S_ 32 0#32),
    StableHlo.TRef.unary main_call0.c main_call0.v0 (broadcastInDim S800000 ![] bcast_S_S800000),
    StableHlo.TRef.binary (.of main_arg5 : StableHlo.TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (.of main_arg5 : StableHlo.TRef sig ⟨S800000, .i32⟩) main_call0.v2 main_call0.v3 addi,
    StableHlo.TRef.ternary main_call0.v1 main_call0.v3 (.of main_arg5 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_arg0 : StableHlo.TRef sig ⟨S50000x128, .f32⟩) main_call0.v5 main_call0.v13 (fun x i => Host.gather gather_S50000x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select,
    StableHlo.nullary main_cst (constant S_ .f32 0x00000000#32),
    StableHlo.unary main_cst main_v1 (broadcastInDim S50000x128 ![] bcast_S_S50000x128 : (⟨S_, .f32⟩ : BufTy).Contents (Elt F) → (⟨S50000x128, .f32⟩ : BufTy).Contents (Elt F)),
    StableHlo.unary main_arg6 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v3 main_v4 (addf : (⟨S50000x128, .f32⟩ : BufTy).Contents (Elt F) → (⟨S50000x128, .f32⟩ : BufTy).Contents (Elt F) → (⟨S50000x128, .f32⟩ : BufTy).Contents (Elt F)),
    StableHlo.unary main_arg1 main_v5 ((extractStridedSlice S1x128x256 ![0, 0, 0] · slices_S3x128x256_S1x128x256_0_0_0) : (⟨S3x128x256, .f32⟩ : BufTy).Contents (Elt F) → (⟨S1x128x256, .f32⟩ : BufTy).Contents (Elt F)),
    StableHlo.reshape main_v5 main_v6 rfl shapeCasts_S1x128x256_S128x256,
    StableHlo.binary main_v4 main_v6 main_v7 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg2 main_v8 ((extractStridedSlice S1x256 ![0, 0] · slices_S3x256_S1x256_0_0) : (⟨S3x256, .f32⟩ : BufTy).Contents (Elt F) → (⟨S1x256, .f32⟩ : BufTy).Contents (Elt F)),
    StableHlo.reshape main_v8 main_v9 rfl shapeCasts_S1x256_S256,
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S50000x256 ![0, 1] bcast_S1x256_S50000x256_0_1 : (⟨S1x256, .f32⟩ : BufTy).Contents (Elt F) → (⟨S50000x256, .f32⟩ : BufTy).Contents (Elt F)),
    StableHlo.binary main_v7 main_v11 main_v12 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v12 : StableHlo.TRef sig ⟨S50000x256, .f32⟩) main_call1.v0 main_call1.v1 maximumf,
    StableHlo.unary main_arg3 main_v14 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v14 main_v15 rfl shapeCasts_S1x256x128_S256x128,
    StableHlo.binary main_v13 main_v15 main_v16 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v17 ((extractStridedSlice S1x128 ![0, 0] · slices_S3x128_S1x128_0_0) : (⟨S3x128, .f32⟩ : BufTy).Contents (Elt F) → (⟨S1x128, .f32⟩ : BufTy).Contents (Elt F)),
    StableHlo.reshape main_v17 main_v18 rfl shapeCasts_S1x128_S128,
    StableHlo.unary main_v18 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v20 main_v21 (addf : (⟨S50000x128, .f32⟩ : BufTy).Contents (Elt F) → (⟨S50000x128, .f32⟩ : BufTy).Contents (Elt F) → (⟨S50000x128, .f32⟩ : BufTy).Contents (Elt F)) ]

/-- Layer 1, in the same order, from layer 0's result. -/
abbrev ops1 : List (HloOp τ sig (Elt F)) :=
  [ StableHlo.TRef.nullary main_call2.c (constantI S_ 32 0#32),
    StableHlo.TRef.unary main_call2.c main_call2.v0 (broadcastInDim S800000 ![] bcast_S_S800000),
    StableHlo.TRef.binary (.of main_arg5 : StableHlo.TRef sig ⟨S800000, .i32⟩) main_call2.v0 main_call2.v1 (cmpi .slt),
    StableHlo.TRef.nullary main_call2.c_0 (constantI S_ 32 50000#32),
    StableHlo.TRef.unary main_call2.c_0 main_call2.v2 (broadcastInDim S800000 ![] bcast_S_S800000),
    StableHlo.TRef.binary (.of main_arg5 : StableHlo.TRef sig ⟨S800000, .i32⟩) main_call2.v2 main_call2.v3 addi,
    StableHlo.TRef.ternary main_call2.v1 main_call2.v3 (.of main_arg5 : StableHlo.TRef sig ⟨S800000, .i32⟩) main_call2.call0.v0 select,
    StableHlo.TRef.unary main_call2.call0.v0 main_call2.v5 (broadcastInDim S800000x1 ![0] bcast_S800000_S800000x1_0),
    StableHlo.TRef.nullary main_call2.c_1 (constantI S1 32 49999#32),
    StableHlo.TRef.nullary main_call2.c_2 (constantI S_ 32 0#32),
    StableHlo.TRef.unary main_call2.c_2 main_call2.v6 (broadcastInDim S800000x1 ![] bcast_S_S800000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S800000x1 ![0, 1] bcast_S1x1_S800000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S800000x1_S800000_d1 h_S_),
    StableHlo.TRef.binary (.of main_v21 : StableHlo.TRef sig ⟨S50000x128, .f32⟩) main_call2.v5 main_call2.v13 (fun x i => Host.gather gather_S50000x128_S800000x1_S800000x128_1_0_n_n_0_1_1128 x i),
    StableHlo.TRef.unary main_call2.v12 main_call2.v14 (broadcastInDim S800000x128 ![0] bcast_S800000_S800000x128_0),
    StableHlo.TRef.nullary main_call2.cst (constant S_ .f32 0x7FC00000#32),
    StableHlo.TRef.unary main_call2.cst main_call2.v15 (broadcastInDim S800000x128 ![] bcast_S_S800000x128),
    StableHlo.TRef.ternary main_call2.v14 main_call2.v13 main_call2.v15 main_call2.v16 select,
    StableHlo.nullary main_cst_0 (constant S_ .f32 0x00000000#32),
    StableHlo.unary main_cst_0 main_v23 (broadcastInDim S50000x128 ![] bcast_S_S50000x128 : (⟨S_, .f32⟩ : BufTy).Contents (Elt F) → (⟨S50000x128, .f32⟩ : BufTy).Contents (Elt F)),
    StableHlo.unary main_arg6 main_v24 (broadcastInDim S800000x1 ![0] bcast_S800000_S800000x1_0 : (⟨S800000, .i32⟩ : BufTy).Contents (Elt F) → (⟨S800000x1, .i32⟩ : BufTy).Contents (Elt F)),
    StableHlo.ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v21 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg1 main_v27 ((extractStridedSlice S1x128x256 ![1, 0, 0] · slices_S3x128x256_S1x128x256_1_0_0) : (⟨S3x128x256, .f32⟩ : BufTy).Contents (Elt F) → (⟨S1x128x256, .f32⟩ : BufTy).Contents (Elt F)),
    StableHlo.reshape main_v27 main_v28 rfl shapeCasts_S1x128x256_S128x256,
    StableHlo.binary main_v26 main_v28 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg2 main_v30 ((extractStridedSlice S1x256 ![1, 0] · slices_S3x256_S1x256_1_0) : (⟨S3x256, .f32⟩ : BufTy).Contents (Elt F) → (⟨S1x256, .f32⟩ : BufTy).Contents (Elt F)),
    StableHlo.reshape main_v30 main_v31 rfl shapeCasts_S1x256_S256,
    StableHlo.unary main_v31 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v33 main_v34 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v34 : StableHlo.TRef sig ⟨S50000x256, .f32⟩) main_call3.v0 main_call3.v1 maximumf,
    StableHlo.unary main_arg3 main_v36 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v36 main_v37 rfl shapeCasts_S1x256x128_S256x128,
    StableHlo.binary main_v35 main_v37 main_v38 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v39 ((extractStridedSlice S1x128 ![1, 0] · slices_S3x128_S1x128_1_0) : (⟨S3x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v42 main_v43 (addf : (⟨S50000x128, .f32⟩ : BufTy).Contents (Elt F) → (⟨S50000x128, .f32⟩ : BufTy).Contents (Elt F) → (⟨S50000x128, .f32⟩ : BufTy).Contents (Elt F)) ]

/-- Layer 2, in the same order, from layer 1's result. -/
abbrev ops2 : List (HloOp τ sig (Elt F)) :=
  [ StableHlo.TRef.nullary main_call4.c (constantI S_ 32 0#32),
    StableHlo.TRef.unary main_call4.c main_call4.v0 (broadcastInDim S800000 ![] bcast_S_S800000),
    StableHlo.TRef.binary (.of main_arg5 : StableHlo.TRef sig ⟨S800000, .i32⟩) main_call4.v0 main_call4.v1 (cmpi .slt),
    StableHlo.TRef.nullary main_call4.c_0 (constantI S_ 32 50000#32),
    StableHlo.TRef.unary main_call4.c_0 main_call4.v2 (broadcastInDim S800000 ![] bcast_S_S800000),
    StableHlo.TRef.binary (.of main_arg5 : StableHlo.TRef sig ⟨S800000, .i32⟩) main_call4.v2 main_call4.v3 addi,
    StableHlo.TRef.ternary main_call4.v1 main_call4.v3 (.of main_arg5 : StableHlo.TRef sig ⟨S800000, .i32⟩) main_call4.call0.v0 select,
    StableHlo.TRef.unary main_call4.call0.v0 main_call4.v5 (broadcastInDim S800000x1 ![0] bcast_S800000_S800000x1_0),
    StableHlo.TRef.nullary main_call4.c_1 (constantI S1 32 49999#32),
    StableHlo.TRef.nullary main_call4.c_2 (constantI S_ 32 0#32),
    StableHlo.TRef.unary main_call4.c_2 main_call4.v6 (broadcastInDim S800000x1 ![] bcast_S_S800000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S800000x1 ![0, 1] bcast_S1x1_S800000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S800000x1_S800000_d1 h_S_),
    StableHlo.TRef.binary (.of main_v43 : StableHlo.TRef sig ⟨S50000x128, .f32⟩) main_call4.v5 main_call4.v13 (fun x i => Host.gather gather_S50000x128_S800000x1_S800000x128_1_0_n_n_0_1_1128 x i),
    StableHlo.TRef.unary main_call4.v12 main_call4.v14 (broadcastInDim S800000x128 ![0] bcast_S800000_S800000x128_0),
    StableHlo.TRef.nullary main_call4.cst (constant S_ .f32 0x7FC00000#32),
    StableHlo.TRef.unary main_call4.cst main_call4.v15 (broadcastInDim S800000x128 ![] bcast_S_S800000x128),
    StableHlo.TRef.ternary main_call4.v14 main_call4.v13 main_call4.v15 main_call4.v16 select,
    StableHlo.nullary main_cst_1 (constant S_ .f32 0x00000000#32),
    StableHlo.unary main_cst_1 main_v45 (broadcastInDim S50000x128 ![] bcast_S_S50000x128 : (⟨S_, .f32⟩ : BufTy).Contents (Elt F) → (⟨S50000x128, .f32⟩ : BufTy).Contents (Elt F)),
    StableHlo.unary main_arg6 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v43 main_v47 main_v48 (addf : (⟨S50000x128, .f32⟩ : BufTy).Contents (Elt F) → (⟨S50000x128, .f32⟩ : BufTy).Contents (Elt F) → (⟨S50000x128, .f32⟩ : BufTy).Contents (Elt F)),
    StableHlo.unary main_arg1 main_v49 ((extractStridedSlice S1x128x256 ![2, 0, 0] · slices_S3x128x256_S1x128x256_2_0_0) : (⟨S3x128x256, .f32⟩ : BufTy).Contents (Elt F) → (⟨S1x128x256, .f32⟩ : BufTy).Contents (Elt F)),
    StableHlo.reshape main_v49 main_v50 rfl shapeCasts_S1x128x256_S128x256,
    StableHlo.binary main_v48 main_v50 main_v51 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg2 main_v52 ((extractStridedSlice S1x256 ![2, 0] · slices_S3x256_S1x256_2_0) : (⟨S3x256, .f32⟩ : BufTy).Contents (Elt F) → (⟨S1x256, .f32⟩ : BufTy).Contents (Elt F)),
    StableHlo.reshape main_v52 main_v53 rfl shapeCasts_S1x256_S256,
    StableHlo.unary main_v53 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S50000x256 ![0, 1] bcast_S1x256_S50000x256_0_1 : (⟨S1x256, .f32⟩ : BufTy).Contents (Elt F) → (⟨S50000x256, .f32⟩ : BufTy).Contents (Elt F)),
    StableHlo.binary main_v51 main_v55 main_v56 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v56 : StableHlo.TRef sig ⟨S50000x256, .f32⟩) main_call5.v0 main_call5.v1 maximumf,
    StableHlo.unary main_arg3 main_v58 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v58 main_v59 rfl shapeCasts_S1x256x128_S256x128,
    StableHlo.binary main_v57 main_v59 main_v60 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v61 ((extractStridedSlice S1x128 ![2, 0] · slices_S3x128_S1x128_2_0) : (⟨S3x128, .f32⟩ : BufTy).Contents (Elt F) → (⟨S1x128, .f32⟩ : BufTy).Contents (Elt F)),
    StableHlo.reshape main_v61 main_v62 rfl shapeCasts_S1x128_S128,
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v64 main_v65 (addf : (⟨S50000x128, .f32⟩ : BufTy).Contents (Elt F) → (⟨S50000x128, .f32⟩ : BufTy).Contents (Elt F) → (⟨S50000x128, .f32⟩ : BufTy).Contents (Elt F)) ]

/-- @main's 141 operations, in order. -/
abbrev ops : List (HloOp τ sig (Elt F)) := ops0 ++ (ops1 ++ ops2)

theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩

theorem ops_sub : (ops : List (HloOp τ sig (Elt F))).Forall fun op => op.bufs ⊆ StableHlo.tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    · exact List.forall_iff_forall_mem.mp ops2_sub op h

/-- The contents after two stretches run in order: the second's fold over the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefMainEq.lean ====
/-
  The reference's @main is the straight line of its 141 operations: the called functions' bodies substituted
  at their calls and the sequencing re-associated, both sides are one chain of steps.
-/
import proofs.«143006_j74388833566752_1_alg».proof.Proof.RefOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

theorem main_eq (c : Dev nD) : main (F := F) c = StableHlo.seq ops := by
  chain_rfl

end Cert.ReferenceIdeal.RefRun

end
-- ==== Proof.RefVal0.lean ====
/-
  Layer 0 of the reference, read back: from any contents, its result buffer ends at the layer's term of the
  layer's input and the six parameter and index arrays, and the seven argument arrays are left as they were.
-/
import proofs.«143006_j74388833566752_1_alg».proof.Proof.RefOps
import proofs.«143006_j74388833566752_1_alg».proof.Proof.RefSpec
import proofs.«143006_j74388833566752_1_alg».proof.Proof.LibTypedRefs
import proofs.«143006_j74388833566752_1_alg».proof.Proof.LibTransport

noncomputable section

namespace Cert.ReferenceIdeal.RefRun

open Cert.ReferenceIdeal Cert.ReferenceIdeal.Gen Idealize.ShloMosaic Idealize.ShloMosaic.TcCoe Idealize.SL.Sem Idealize.ShloMosaic.StableHlo

/-- No operation of the layer leaves a result undetermined. -/
theorem ops0_fresh {F : FTy → Type} [FloatOps F] : ∀ op ∈ (ops0 : List (HloOp τ sig (Elt F))), op.fresh = ∅ := by
  intro _ h
  repeat (cases h with | head => rfl | tail _ h => ?_)
  exact nomatch h

-- the gather, the scatter-add and the index reduction are compared as wholes, never opened
attribute [local irreducible] Host.reduce Host.gather Host.scatterAdd in
set_option maxRecDepth 8192 in
/-- The layer's result: each operation's result read at its own buffer, the composed term is the layer's. A called
    function's operations move each value between its tensor type and its buffer's type; at these buffers the two
    types compute to one, so each move is the identity: a written value read back, the callee's arguments where it
    reads them, its returned value where it writes it. -/
theorem out0 (V : Valuation τ sig (Elt Ideal)) :
    StableHlo.after (ops0 (F := Ideal)) V (main_v21 : DevRef τ sig)
      = Cert.Gnn.layer0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [TRef.ofBuf_toBuf]
  have ex : ∀ h1 h2 h3 v, (TRef.of main_arg0 h1 h2 h3 : TRef sig ⟨S50000x128, .f32⟩).ofBuf (Val := Elt Ideal) v = v :=
    fun _ _ _ _ => TRef.ofBuf_eq_of_heq _ _ _ HEq.rfl
  have es : ∀ h1 h2 h3 v, (TRef.of main_arg5 h1 h2 h3 : TRef sig ⟨S800000, .i32⟩).ofBuf (Val := Elt Ideal) v = v :=
    fun _ _ _ _ => TRef.ofBuf_eq_of_heq _ _ _ HEq.rfl
  have et : ∀ h1 h2 h3 w, (TRef.of main_v0 h1 h2 h3 : TRef sig ⟨S800000x128, .f32⟩).toBuf (Val := Elt Ideal) w = w :=
    fun _ _ _ _ => TRef.toBuf_eq_of_heq _ _ _ HEq.rfl
  have er : ∀ h1 h2 h3 v, (TRef.of main_v12 h1 h2 h3 : TRef sig ⟨S50000x256, .f32⟩).ofBuf (Val := Elt Ideal) v = v :=
    fun _ _ _ _ => TRef.ofBuf_eq_of_heq _ _ _ HEq.rfl
  have eo : ∀ h1 h2 h3 w, (TRef.of main_v13 h1 h2 h3 : TRef sig ⟨S50000x256, .f32⟩).toBuf (Val := Elt Ideal) w = w :=
    fun _ _ _ _ => TRef.toBuf_eq_of_heq _ _ _ HEq.rfl
  simp only [ex, es, et, er, eo]
  unfold Cert.Gnn.layer0 Cert.Gnn.mlp Cert.Gnn.agg Cert.Gnn.take Cert.Gnn.inRange Cert.Gnn.idxCol Cert.Gnn.wrapIdx
    Cert.Gnn.w1At0 Cert.Gnn.b1At0 Cert.Gnn.w2At0 Cert.Gnn.b2At0
  rfl

theorem arg0_0 (V : Valuation τ sig (Elt Ideal)) :
    StableHlo.after (ops0 (F := Ideal)) V (main_arg0 : DevRef τ sig) = V (main_arg0 : DevRef τ sig) := by
  after_results_simp

theorem arg1_0 (V : Valuation τ sig (Elt Ideal)) :
    StableHlo.after (ops0 (F := Ideal)) V (main_arg1 : DevRef τ sig) = V (main_arg1 : DevRef τ sig) := by
  after_results_simp

theorem arg2_0 (V : Valuation τ sig (Elt Ideal)) :
    StableHlo.after (ops0 (F := Ideal)) V (main_arg2 : DevRef τ sig) = V (main_arg2 : DevRef τ sig) := by
  after_results_simp

theorem arg3_0 (V : Valuation τ sig (Elt Ideal)) :
    StableHlo.after (ops0 (F := Ideal)) V (main_arg3 : DevRef τ sig) = V (main_arg3 : DevRef τ sig) := by
  after_results_simp

theorem arg4_0 (V : Valuation τ sig (Elt Ideal)) :
    StableHlo.after (ops0 (F := Ideal)) V (main_arg4 : DevRef τ sig) = V (main_arg4 : DevRef τ sig) := by
  after_results_simp

theorem arg5_0 (V : Valuation τ sig (Elt Ideal)) :
    StableHlo.after (ops0 (F := Ideal)) V (main_arg5 : DevRef τ sig) = V (main_arg5 : DevRef τ sig) := by
  after_results_simp

theorem arg6_0 (V : Valuation τ sig (Elt Ideal)) :
    StableHlo.after (ops0 (F := Ideal)) V (main_arg6 : DevRef τ sig) = V (main_arg6 : DevRef τ sig) := by
  after_results_simp

end Cert.ReferenceIdeal.RefRun

end
-- ==== Proof.RefVal1.lean ====
/-
  Layer 1 of the reference, read back: from any contents, its result buffer ends at the layer's term of the
  layer's input and the six parameter and index arrays, and the seven argument arrays are left as they were.
-/
import proofs.«143006_j74388833566752_1_alg».proof.Proof.RefOps
import proofs.«143006_j74388833566752_1_alg».proof.Proof.RefSpec
import proofs.«143006_j74388833566752_1_alg».proof.Proof.LibTypedRefs
import proofs.«143006_j74388833566752_1_alg».proof.Proof.LibTransport

noncomputable section

namespace Cert.ReferenceIdeal.RefRun

open Cert.ReferenceIdeal Cert.ReferenceIdeal.Gen Idealize.ShloMosaic Idealize.ShloMosaic.TcCoe Idealize.SL.Sem Idealize.ShloMosaic.StableHlo

/-- No operation of the layer leaves a result undetermined. -/
theorem ops1_fresh {F : FTy → Type} [FloatOps F] : ∀ op ∈ (ops1 : List (HloOp τ sig (Elt F))), op.fresh = ∅ := by
  intro _ h
  repeat (cases h with | head => rfl | tail _ h => ?_)
  exact nomatch h

-- the gather, the scatter-add and the index reduction are compared as wholes, never opened
attribute [local irreducible] Host.reduce Host.gather Host.scatterAdd in
set_option maxRecDepth 8192 in
/-- The layer's result: each operation's result read at its own buffer, the composed term is the layer's. A called
    function's operations move each value between its tensor type and its buffer's type; at these buffers the two
    types compute to one, so each move is the identity: a written value read back, the callee's arguments where it
    reads them, its returned value where it writes it. -/
theorem out1 (V : Valuation τ sig (Elt Ideal)) :
    StableHlo.after (ops1 (F := Ideal)) V (main_v43 : DevRef τ sig)
      = Cert.Gnn.layer1 (V (main_v21 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [TRef.ofBuf_toBuf]
  have ex : ∀ h1 h2 h3 v, (TRef.of main_v21 h1 h2 h3 : TRef sig ⟨S50000x128, .f32⟩).ofBuf (Val := Elt Ideal) v = v :=
    fun _ _ _ _ => TRef.ofBuf_eq_of_heq _ _ _ HEq.rfl
  have es : ∀ h1 h2 h3 v, (TRef.of main_arg5 h1 h2 h3 : TRef sig ⟨S800000, .i32⟩).ofBuf (Val := Elt Ideal) v = v :=
    fun _ _ _ _ => TRef.ofBuf_eq_of_heq _ _ _ HEq.rfl
  have et : ∀ h1 h2 h3 w, (TRef.of main_v22 h1 h2 h3 : TRef sig ⟨S800000x128, .f32⟩).toBuf (Val := Elt Ideal) w = w :=
    fun _ _ _ _ => TRef.toBuf_eq_of_heq _ _ _ HEq.rfl
  have er : ∀ h1 h2 h3 v, (TRef.of main_v34 h1 h2 h3 : TRef sig ⟨S50000x256, .f32⟩).ofBuf (Val := Elt Ideal) v = v :=
    fun _ _ _ _ => TRef.ofBuf_eq_of_heq _ _ _ HEq.rfl
  have eo : ∀ h1 h2 h3 w, (TRef.of main_v35 h1 h2 h3 : TRef sig ⟨S50000x256, .f32⟩).toBuf (Val := Elt Ideal) w = w :=
    fun _ _ _ _ => TRef.toBuf_eq_of_heq _ _ _ HEq.rfl
  simp only [ex, es, et, er, eo]
  unfold Cert.Gnn.layer1 Cert.Gnn.mlp Cert.Gnn.agg Cert.Gnn.take Cert.Gnn.inRange Cert.Gnn.idxCol Cert.Gnn.wrapIdx
    Cert.Gnn.w1At1 Cert.Gnn.b1At1 Cert.Gnn.w2At1 Cert.Gnn.b2At1
  rfl

theorem arg0_1 (V : Valuation τ sig (Elt Ideal)) :
    StableHlo.after (ops1 (F := Ideal)) V (main_arg0 : DevRef τ sig) = V (main_arg0 : DevRef τ sig) := by
  after_results_simp

theorem arg1_1 (V : Valuation τ sig (Elt Ideal)) :
    StableHlo.after (ops1 (F := Ideal)) V (main_arg1 : DevRef τ sig) = V (main_arg1 : DevRef τ sig) := by
  after_results_simp

theorem arg2_1 (V : Valuation τ sig (Elt Ideal)) :
    StableHlo.after (ops1 (F := Ideal)) V (main_arg2 : DevRef τ sig) = V (main_arg2 : DevRef τ sig) := by
  after_results_simp

theorem arg3_1 (V : Valuation τ sig (Elt Ideal)) :
    StableHlo.after (ops1 (F := Ideal)) V (main_arg3 : DevRef τ sig) = V (main_arg3 : DevRef τ sig) := by
  after_results_simp

theorem arg4_1 (V : Valuation τ sig (Elt Ideal)) :
    StableHlo.after (ops1 (F := Ideal)) V (main_arg4 : DevRef τ sig) = V (main_arg4 : DevRef τ sig) := by
  after_results_simp

theorem arg5_1 (V : Valuation τ sig (Elt Ideal)) :
    StableHlo.after (ops1 (F := Ideal)) V (main_arg5 : DevRef τ sig) = V (main_arg5 : DevRef τ sig) := by
  after_results_simp

theorem arg6_1 (V : Valuation τ sig (Elt Ideal)) :
    StableHlo.after (ops1 (F := Ideal)) V (main_arg6 : DevRef τ sig) = V (main_arg6 : DevRef τ sig) := by
  after_results_simp

end Cert.ReferenceIdeal.RefRun

end
-- ==== Proof.RefVal2.lean ====
/-
  Layer 2 of the reference, read back: from any contents, its result buffer ends at the layer's term of the
  layer's input and the six parameter and index arrays, and the seven argument arrays are left as they were.
-/
import proofs.«143006_j74388833566752_1_alg».proof.Proof.RefOps
import proofs.«143006_j74388833566752_1_alg».proof.Proof.RefSpec
import proofs.«143006_j74388833566752_1_alg».proof.Proof.LibTypedRefs
import proofs.«143006_j74388833566752_1_alg».proof.Proof.LibTransport

noncomputable section

namespace Cert.ReferenceIdeal.RefRun

open Cert.ReferenceIdeal Cert.ReferenceIdeal.Gen Idealize.ShloMosaic Idealize.ShloMosaic.TcCoe Idealize.SL.Sem Idealize.ShloMosaic.StableHlo

/-- No operation of the layer leaves a result undetermined. -/
theorem ops2_fresh {F : FTy → Type} [FloatOps F] : ∀ op ∈ (ops2 : List (HloOp τ sig (Elt F))), op.fresh = ∅ := by
  intro _ h
  repeat (cases h with | head => rfl | tail _ h => ?_)
  exact nomatch h

-- the gather, the scatter-add and the index reduction are compared as wholes, never opened
attribute [local irreducible] Host.reduce Host.gather Host.scatterAdd in
set_option maxRecDepth 8192 in
/-- The layer's result: each operation's result read at its own buffer, the composed term is the layer's. A called
    function's operations move each value between its tensor type and its buffer's type; at these buffers the two
    types compute to one, so each move is the identity: a written value read back, the callee's arguments where it
    reads them, its returned value where it writes it. -/
theorem out2 (V : Valuation τ sig (Elt Ideal)) :
    StableHlo.after (ops2 (F := Ideal)) V (main_v65 : DevRef τ sig)
      = Cert.Gnn.layer2 (V (main_v43 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [TRef.ofBuf_toBuf]
  have ex : ∀ h1 h2 h3 v, (TRef.of main_v43 h1 h2 h3 : TRef sig ⟨S50000x128, .f32⟩).ofBuf (Val := Elt Ideal) v = v :=
    fun _ _ _ _ => TRef.ofBuf_eq_of_heq _ _ _ HEq.rfl
  have es : ∀ h1 h2 h3 v, (TRef.of main_arg5 h1 h2 h3 : TRef sig ⟨S800000, .i32⟩).ofBuf (Val := Elt Ideal) v = v :=
    fun _ _ _ _ => TRef.ofBuf_eq_of_heq _ _ _ HEq.rfl
  have et : ∀ h1 h2 h3 w, (TRef.of main_v44 h1 h2 h3 : TRef sig ⟨S800000x128, .f32⟩).toBuf (Val := Elt Ideal) w = w :=
    fun _ _ _ _ => TRef.toBuf_eq_of_heq _ _ _ HEq.rfl
  have er : ∀ h1 h2 h3 v, (TRef.of main_v56 h1 h2 h3 : TRef sig ⟨S50000x256, .f32⟩).ofBuf (Val := Elt Ideal) v = v :=
    fun _ _ _ _ => TRef.ofBuf_eq_of_heq _ _ _ HEq.rfl
  have eo : ∀ h1 h2 h3 w, (TRef.of main_v57 h1 h2 h3 : TRef sig ⟨S50000x256, .f32⟩).toBuf (Val := Elt Ideal) w = w :=
    fun _ _ _ _ => TRef.toBuf_eq_of_heq _ _ _ HEq.rfl
  simp only [ex, es, et, er, eo]
  unfold Cert.Gnn.layer2 Cert.Gnn.mlp Cert.Gnn.agg Cert.Gnn.take Cert.Gnn.inRange Cert.Gnn.idxCol Cert.Gnn.wrapIdx
    Cert.Gnn.w1At2 Cert.Gnn.b1At2 Cert.Gnn.w2At2 Cert.Gnn.b2At2
  rfl

theorem arg0_2 (V : Valuation τ sig (Elt Ideal)) :
    StableHlo.after (ops2 (F := Ideal)) V (main_arg0 : DevRef τ sig) = V (main_arg0 : DevRef τ sig) := by
  after_results_simp

theorem arg1_2 (V : Valuation τ sig (Elt Ideal)) :
    StableHlo.after (ops2 (F := Ideal)) V (main_arg1 : DevRef τ sig) = V (main_arg1 : DevRef τ sig) := by
  after_results_simp

theorem arg2_2 (V : Valuation τ sig (Elt Ideal)) :
    StableHlo.after (ops2 (F := Ideal)) V (main_arg2 : DevRef τ sig) = V (main_arg2 : DevRef τ sig) := by
  after_results_simp

theorem arg3_2 (V : Valuation τ sig (Elt Ideal)) :
    StableHlo.after (ops2 (F := Ideal)) V (main_arg3 : DevRef τ sig) = V (main_arg3 : DevRef τ sig) := by
  after_results_simp

theorem arg4_2 (V : Valuation τ sig (Elt Ideal)) :
    StableHlo.after (ops2 (F := Ideal)) V (main_arg4 : DevRef τ sig) = V (main_arg4 : DevRef τ sig) := by
  after_results_simp

theorem arg5_2 (V : Valuation τ sig (Elt Ideal)) :
    StableHlo.after (ops2 (F := Ideal)) V (main_arg5 : DevRef τ sig) = V (main_arg5 : DevRef τ sig) := by
  after_results_simp

theorem arg6_2 (V : Valuation τ sig (Elt Ideal)) :
    StableHlo.after (ops2 (F := Ideal)) V (main_arg6 : DevRef τ sig) = V (main_arg6 : DevRef τ sig) := by
  after_results_simp

end Cert.ReferenceIdeal.RefRun

end
-- ==== Proof.RefRun.lean ====
/-
  The reference's run, read back: from any memory with zero counters every weakly fair execution of @main on
  the TensorCores terminates, the result buffer holding the three layers' composed term of the seven
  arguments' launch contents and the arguments unchanged. The fold over the 141 operations is read layer by
  layer — each layer's stretch from contents that are a variable — and the three readings composed.
-/
import proofs.«143006_j74388833566752_1_alg».proof.Proof.RefMainEq
import proofs.«143006_j74388833566752_1_alg».proof.Proof.RefVal0
import proofs.«143006_j74388833566752_1_alg».proof.Proof.RefVal1
import proofs.«143006_j74388833566752_1_alg».proof.Proof.RefVal2

noncomputable section

namespace Cert.ReferenceIdeal.RefRun

open Cert.ReferenceIdeal Cert.ReferenceIdeal.Gen Idealize.ShloMosaic Idealize.ShloMosaic.TcCoe Idealize.SL.Sem Idealize.ShloMosaic.StableHlo

/-- No operation of @main leaves a result undetermined. -/
theorem ops_fresh {F : FTy → Type} [FloatOps F] : ∀ op ∈ (ops : List (HloOp τ sig (Elt F))), op.fresh = ∅ := fun op h => by
  rcases List.mem_append.mp h with h | h
  · exact ops0_fresh op h
  rcases List.mem_append.mp h with h | h
  · exact ops1_fresh op h
  · exact ops2_fresh op h

/-- The whole fold at the result buffer: layer 2 of layer 1 of layer 0, each layer reading the parameter and
    index arrays where the launch left them. -/
theorem out (V : Valuation τ sig (Elt Ideal)) :
    StableHlo.after (ops (F := Ideal)) V (main_v65 : DevRef τ sig)
      = Cert.Gnn.result (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  rw [after_append, after_append, out2, out1, arg1_1, arg2_1, arg3_1, arg4_1, arg5_1, arg6_1, out0,
    arg1_0, arg2_0, arg3_0, arg4_0, arg5_0, arg6_0]
  rfl

theorem arg0 (V : Valuation τ sig (Elt Ideal)) :
    StableHlo.after (ops (F := Ideal)) V (main_arg0 : DevRef τ sig) = V (main_arg0 : DevRef τ sig) := by
  rw [after_append, after_append, arg0_2, arg0_1, arg0_0]
theorem arg1 (V : Valuation τ sig (Elt Ideal)) :
    StableHlo.after (ops (F := Ideal)) V (main_arg1 : DevRef τ sig) = V (main_arg1 : DevRef τ sig) := by
  rw [after_append, after_append, arg1_2, arg1_1, arg1_0]
theorem arg2 (V : Valuation τ sig (Elt Ideal)) :
    StableHlo.after (ops (F := Ideal)) V (main_arg2 : DevRef τ sig) = V (main_arg2 : DevRef τ sig) := by
  rw [after_append, after_append, arg2_2, arg2_1, arg2_0]
theorem arg3 (V : Valuation τ sig (Elt Ideal)) :
    StableHlo.after (ops (F := Ideal)) V (main_arg3 : DevRef τ sig) = V (main_arg3 : DevRef τ sig) := by
  rw [after_append, after_append, arg3_2, arg3_1, arg3_0]
theorem arg4 (V : Valuation τ sig (Elt Ideal)) :
    StableHlo.after (ops (F := Ideal)) V (main_arg4 : DevRef τ sig) = V (main_arg4 : DevRef τ sig) := by
  rw [after_append, after_append, arg4_2, arg4_1, arg4_0]
theorem arg5 (V : Valuation τ sig (Elt Ideal)) :
    StableHlo.after (ops (F := Ideal)) V (main_arg5 : DevRef τ sig) = V (main_arg5 : DevRef τ sig) := by
  rw [after_append, after_append, arg5_2, arg5_1, arg5_0]
theorem arg6 (V : Valuation τ sig (Elt Ideal)) :
    StableHlo.after (ops (F := Ideal)) V (main_arg6 : DevRef τ sig) = V (main_arg6 : DevRef τ sig) := by
  rw [after_append, after_append, arg6_2, arg6_1, arg6_0]

/-- On every device, from any memory with zero counters: every weakly fair execution of the reference's @main
    terminates with its result at `Cert.Gnn.result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
        = Cert.Gnn.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v65).trans (out (launchContents m c)),
      (h c main_arg0).trans (arg0 (launchContents m c)),
      (h c main_arg1).trans (arg1 (launchContents m c)),
      (h c main_arg2).trans (arg2 (launchContents m c)),
      (h c main_arg3).trans (arg3 (launchContents m c)),
      (h c main_arg4).trans (arg4 (launchContents m c)),
      (h c main_arg5).trans (arg5 (launchContents m c)),
      (h c main_arg6).trans (arg6 (launchContents m c))⟩)
    (run_seq scopedRefs_eq scopedSems_eq defs main (fun _ => ops) main_eq (fun _ => ops_sub) m ρ (fun _ => ops_fresh))

end Cert.ReferenceIdeal.RefRun

end
-- ==== Proof.lean ====
/-
  The certificate of a three-layer message-passing network: a kernel program whose dense stage (two matrix products with a
  rectifier between) runs as a tiled TensorCore region, against a reference that does everything with host operations.

  Per layer both programs gather the node features' rows at the source indices, sum them into the destination rows, add the
  result to the node features, and apply the layer's two-layer perceptron at its slice of the stacked parameters. The gather, the
  scatter-add and the slices are the same host operations in both programs, so they are carried as one function of the
  contents before them and never opened. The perceptron differs in form only: the kernel feeds the matrix unit from a zero
  accumulator block by block with changes of float format that are the identity on the extended reals, the reference
  applies whole-matrix products; entry by entry both are Σ_j max(Σ_k (x+a)[p,k]·w1[k,j] + b1[j], 0)·w2[j,f] + b2[f], with
  the sums in the same nesting on both sides, so no law of arithmetic beyond that reading is used and the inputs'
  finiteness is never needed. The three frames are the programs' runs with the results dropped; the ideal pass rewrote
  nothing, so there is nothing to preserve.
-/
import proofs.«143006_j74388833566752_1_alg».proof.Defs
import proofs.«143006_j74388833566752_1_alg».proof.Proof.Gen.Kernel
import proofs.«143006_j74388833566752_1_alg».proof.Proof.Gen.Kernel.Frame
import proofs.«143006_j74388833566752_1_alg».proof.Proof.Gen.KernelIdeal
import proofs.«143006_j74388833566752_1_alg».proof.Proof.Gen.KernelIdeal.Frame
import proofs.«143006_j74388833566752_1_alg».proof.Proof.Gen.ReferenceIdeal
import proofs.«143006_j74388833566752_1_alg».proof.Proof.Gen.Pre_finite_inputs
import proofs.«143006_j74388833566752_1_alg».proof.Proof.KRun
import proofs.«143006_j74388833566752_1_alg».proof.Proof.KValue
import proofs.«143006_j74388833566752_1_alg».proof.Proof.RefRun

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- From memories agreeing on the arguments both programs end with the three layers of the arguments' contents in their
    result arrays. -/
theorem algebraic : Cert.algebraic_KernelIdeal_ReferenceIdeal := by
  intro m ρ m' ρ' _ hagree
  refine ⟨fun c => Cert.Gnn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.out2 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
